-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8x128 : Shape := ⟨3, ![131072, 8, 128]⟩
abbrev S131072x8 : Shape := ⟨2, ![131072, 8]⟩
abbrev S8 : Shape := ⟨1, ![8]⟩
abbrev S8x8 : Shape := ⟨2, ![8, 8]⟩
abbrev S_ : Shape := ⟨0, ![]⟩
abbrev S1x8 : Shape := ⟨2, ![1, 8]⟩

class Facts : Prop where
  bcast_S_S131072x8x128 : S_.BroadcastsInDim S131072x8x128 (![] : Fin 0 → Fin S131072x8x128.rank)
  reducesTo_S131072x8x128_S_d0_1_2 : S131072x8x128.ReducesTo [0, 1, 2] S_
  h_S_ : 0 < S_.numel
  bcast_S_S131072x8 : S_.BroadcastsInDim S131072x8 (![] : Fin 0 → Fin S131072x8.rank)
  reducesTo_S131072x8_S_d0_1 : S131072x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)

variable [Facts]

def fn_part3 {F : FTy → Type} [FloatOps F] (main_v38 : IVec S_ 1) (main_v50 : FVec F S131072x8 .f32) (main_v52 : FVec F S131072x8 .f32) : IVec S_ 1 :=
  let main_v53 : FVec F S131072x8 .f32 := addf main_v50 main_v52
  let main_cst_17 : FVec F S_ .f32 := constant S_ .f32 0x00000000#32
  let main_v54 : FVec F S131072x8 .f32 := broadcastInDim S131072x8 ![] bcast_S_S131072x8 main_cst_17
  let main_v55 : IVec S131072x8 1 := cmpf .ogt main_v53 main_v54
  let main_c_18 : IVec S_ 1 := constantI S_ 1 1#1
  let main_v56 : IVec S_ 1 := (fun x v => Host.reduce IntOp.andi x v reducesTo_S131072x8_S_d0_1 h_S_) main_v55 main_c_18
  let main_v57 : IVec S_ 1 := andi main_v38 main_v56
  main_v57

def fn_part2 {F : FTy → Type} [FloatOps F] (main_arg1 : FVec F S131072x8 .f32) (main_arg2 : FVec F S8 .f32) (main_arg3 : FVec F S8 .f32) (main_arg7 : FVec F S8 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S1x8 .f32 := broadcastInDim S1x8 ![1] bcast_S8_S1x8_1 main_arg7
  let main_v40 : FVec F S131072x8 .f32 := broadcastInDim S131072x8 ![0, 1] bcast_S1x8_S131072x8_0_1 main_v39
  let main_v41 : FVec F S131072x8 .f32 := subf main_arg1 main_v40
  let main_cst_14 : FVec F S_ .f32 := constant S_ .f32 0x402DF854#32
  let main_v42 : FVec F S131072x8 .f32 := broadcastInDim S131072x8 ![] bcast_S_S131072x8 main_cst_14
  let main_v43 : FVec F S131072x8 .f32 := addf main_v41 main_v42
  let main_cst_15 : FVec F S_ .f32 := constant S_ .f32 0x402DF854#32
  let main_v44 : FVec F S131072x8 .f32 := broadcastInDim S131072x8 ![] bcast_S_S131072x8 main_cst_15
  let main_v45 : FVec F S131072x8 .f32 := maximumf main_v43 main_v44
  let main_cst_16 : FVec F S_ .f32 := constant S_ .f32 0x3F800000#32
  let main_v46 : FVec F S8 .f32 := broadcastInDim S8 ![] bcast_S_S8 main_cst_16
  let main_v47 : FVec F S8 .f32 := addf main_v46 main_arg2
  let main_v48 : FVec F S1x8 .f32 := broadcastInDim S1x8 ![1] bcast_S8_S1x8_1 main_v47
  let main_v49 : FVec F S131072x8 .f32 := broadcastInDim S131072x8 ![0, 1] bcast_S1x8_S131072x8_0_1 main_v48
  let main_v50 : FVec F S131072x8 .f32 := mulf main_v49 main_v45
  let main_v51 : FVec F S1x8 .f32 := broadcastInDim S1x8 ![1] bcast_S8_S1x8_1 main_arg3
  let main_v52 : FVec F S131072x8 .f32 := broadcastInDim S131072x8 ![0, 1] bcast_S1x8_S131072x8_0_1 main_v51
  fn_part3 (F := F) main_v38 main_v50 main_v52

def fn_part1 {F : FTy → Type} [FloatOps F] (main_arg1 : FVec F S131072x8 .f32) (main_arg2 : FVec F S8 .f32) (main_arg3 : FVec F S8 .f32) (main_arg4 : FVec F S8x8 .f32) (main_arg5 : FVec F S8 .f32) (main_arg6 : FVec F S8 .f32) (main_arg7 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x8 .f32 := Host.absf main_arg4
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg1 main_arg2 main_arg3 main_arg7 main_v33

def fn {F : FTy → Type} [FloatOps F] (main_arg0 : FVec F S131072x8x128 .f32) (main_arg1 : FVec F S131072x8 .f32) (main_arg2 : FVec F S8 .f32) (main_arg3 : FVec F S8 .f32) (main_arg4 : FVec F S8x8 .f32) (main_arg5 : FVec F S8 .f32) (main_arg6 : FVec F S8 .f32) (main_arg7 : FVec F S8 .f32) : IVec S_ 1 :=
  let main_v0 : FVec F S131072x8x128 .f32 := Host.absf main_arg0
  let main_cst : FVec F S_ .f32 := constant S_ .f32 0x7F800000#32
  let main_v1 : FVec F S131072x8x128 .f32 := broadcastInDim S131072x8x128 ![] bcast_S_S131072x8x128 main_cst
  let main_v2 : IVec S131072x8x128 1 := cmpf .olt main_v0 main_v1
  let main_c : IVec S_ 1 := constantI S_ 1 1#1
  let main_v3 : IVec S_ 1 := (fun x v => Host.reduce IntOp.andi x v reducesTo_S131072x8x128_S_d0_1_2 h_S_) main_v2 main_c
  let main_v4 : FVec F S131072x8 .f32 := Host.absf main_arg1
  let main_cst_0 : FVec F S_ .f32 := constant S_ .f32 0x7F800000#32
  let main_v5 : FVec F S131072x8 .f32 := broadcastInDim S131072x8 ![] bcast_S_S131072x8 main_cst_0
  let main_v6 : IVec S131072x8 1 := cmpf .olt main_v4 main_v5
  let main_c_1 : IVec S_ 1 := constantI S_ 1 1#1
  let main_v7 : IVec S_ 1 := (fun x v => Host.reduce IntOp.andi x v reducesTo_S131072x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg1 main_arg2 main_arg3 main_arg4 main_arg5 main_arg6 main_arg7 main_v13 main_v16
-- ==== Kernel.lean ====
abbrev S131072x8x128 : Shape := ⟨3, ![131072, 8, 128]⟩
abbrev S131072x8 : Shape := ⟨2, ![131072, 8]⟩
abbrev S8 : Shape := ⟨1, ![8]⟩
abbrev S8x8 : Shape := ⟨2, ![8, 8]⟩
abbrev S8x64 : Shape := ⟨2, ![8, 64]⟩
abbrev S64x8 : Shape := ⟨2, ![64, 8]⟩
abbrev S8x1 : Shape := ⟨2, ![8, 1]⟩
abbrev S1x8 : Shape := ⟨2, ![1, 8]⟩
abbrev S64 : Shape := ⟨1, ![64]⟩
abbrev S_ : Shape := ⟨0, ![]⟩
abbrev S1024x8x128 : Shape := ⟨3, ![1024, 8, 128]⟩
abbrev S1024x8 : Shape := ⟨2, ![1024, 8]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S1024x8x1 : Shape := ⟨3, ![1024, 8, 1]⟩

abbrev nBuf : Space → Nat
  | .hbm => 24
  | .vmem => 16
  | .smem => 0
  | _ => 0

abbrev bufTy : (tb : Table) → Fin (tcTables nBuf tb) → BufTy
  | .hbm, ⟨0, _⟩ => ⟨S131072x8x128, .f32⟩
  | .hbm, ⟨1, _⟩ => ⟨S131072x8, .f32⟩
  | .hbm, ⟨2, _⟩ => ⟨S8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S8x64, .f32⟩
  | .hbm, ⟨9, _⟩ => ⟨S8x64, .f32⟩
  | .hbm, ⟨10, _⟩ => ⟨S64x8, .f32⟩
  | .hbm, ⟨11, _⟩ => ⟨S8, .i32⟩
  | .hbm, ⟨12, _⟩ => ⟨S8x1, .i32⟩
  | .hbm, ⟨13, _⟩ => ⟨S1x8, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x8, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S131072x8x128, .f32⟩
  | .local _ .vmem, ⟨0, _⟩ => ⟨S1024x8x128, .f32⟩
  | .local _ .vmem, ⟨1, _⟩ => ⟨S1024x8x128, .f32⟩
  | .local _ .vmem, ⟨2, _⟩ => ⟨S1024x8, .f32⟩
  | .local _ .vmem, ⟨3, _⟩ => ⟨S1024x8, .f32⟩
  | .local _ .vmem, ⟨4, _⟩ => ⟨S8, .f32⟩
  | .local _ .vmem, ⟨5, _⟩ => ⟨S8, .f32⟩
  | .local _ .vmem, ⟨6, _⟩ => ⟨S64, .f32⟩
  | .local _ .vmem, ⟨7, _⟩ => ⟨S64, .f32⟩
  | .local _ .vmem, ⟨8, _⟩ => ⟨S8, .f32⟩
  | .local _ .vmem, ⟨9, _⟩ => ⟨S8, .f32⟩
  | .local _ .vmem, ⟨10, _⟩ => ⟨S8, .f32⟩
  | .local _ .vmem, ⟨11, _⟩ => ⟨S8x64, .f32⟩
  | .local _ .vmem, ⟨12, _⟩ => ⟨S8x64, .f32⟩
  | .local _ .vmem, ⟨13, _⟩ => ⟨S64x8, .f32⟩
  | .local _ .vmem, ⟨14, _⟩ => ⟨S1024x8x128, .f32⟩
  | .local _ .vmem, ⟨15, _⟩ => ⟨S1024x8x128, .f32⟩
  | _, _ => ⟨S131072x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  transposes_S8x8_S8x8_1_0 : S8x8.Transposes [1, 0] S8x8
  shapeCasts_S8x8_S64 : S8x8.ShapeCasts S64
  bcast_S_S64 : S_.BroadcastsInDim S64 (![] : Fin 0 → Fin S64.rank)
  inb_S1024x8_S1024x8_0_0 : ∀ a, (![0, 0] : Fin 2 → Nat) a + S1024x8.size a ≤ S1024x8.size a
  h_S1024x8 : 0 < S1024x8.numel
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x64_S8x64_0_0 : ∀ a, (![0, 0] : Fin 2 → Nat) a + S8x64.size a ≤ S8x64.size a
  h_S8x64 : 0 < S8x64.numel
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S1024x64 : S1x64.Broadcasts S1024x64
  inb_S64x8_S64x8_0_0 : ∀ a, (![0, 0] : Fin 2 → Nat) a + S64x8.size a ≤ S64x8.size a
  h_S64x8 : 0 < S64x8.numel
  reduces_S1024x8_S1024 : S1024x8.Reduces [1] S1024
  shapeCasts_S1024_S1024x1 : S1024.ShapeCasts S1024x1
  broadcasts_S1024x1_S1024x8 : S1024x1.Broadcasts S1024x8
  shapeCasts_S1024x8_S1024x8x1 : S1024x8.ShapeCasts S1024x8x1
  inb_S1024x8x128_S1024x8x128_0_0_0 : ∀ a, (![0, 0, 0] : Fin 3 → Nat) a + S1024x8x128.size a ≤ S1024x8x128.size a
  h_S1024x8x128 : 0 < S1024x8x128.numel
  broadcasts_S1024x8x1_S1024x8x128 : S1024x8x1.Broadcasts S1024x8x128
  dot_S1024x8_S8x64_S1024x64_1_0_0_1_n_n_wf : DotDims.WF S1024x8 S8x64 S1024x64 [1] [0] [0] [1] [] []
  dot_S1024x64_S64x8_S1024x8_1_0_0_1_n_n_wf : DotDims.WF S1024x64 S64x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x128.size a ≤ S131072x8x128.size a
  hwx0_0 : ∀ i : grid0.Coords, EltTy.bits .f32 = 32 ∨ (Rect.block (s := S131072x8x128) S1024x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S131072x8.size a
  hwx0_1 : ∀ i : grid0.Coords, EltTy.bits .f32 = 32 ∨ (Rect.block (s := S131072x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x64.size a ≤ S8x64.size a
  hwx0_9 : ∀ i : grid0.Coords, EltTy.bits .f32 = 32 ∨ (Rect.block (s := S8x64) S8x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x64.size a ≤ S8x64.size a
  hwx0_10 : ∀ i : grid0.Coords, EltTy.bits .f32 = 32 ∨ (Rect.block (s := S8x64) S8x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x8.size a ≤ S64x8.size a
  hwx0_11 : ∀ i : grid0.Coords, EltTy.bits .f32 = 32 ∨ (Rect.block (s := S64x8) S64x8.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x8x128.size a ≤ S131072x8x128.size a
  hwx0_12 : ∀ i : grid0.Coords, EltTy.bits .f32 = 32 ∨ (Rect.block (s := S131072x8x128) S1024x8x128.size (cc0_transform_12 i) (hinb0_12 i)).WholeWords (EltTy.packing .f32)

variable [Facts₀]

def dot_S1024x8_S8x64_S1024x64_1_0_0_1_n_n : DotDims S1024x8 S8x64 S1024x64 where
  lhsContracting := [1]
  rhsContracting := [0]
  lhsNonContracting := [0]
  rhsNonContracting := [1]
  lhsBatch := []
  rhsBatch := []
  wf := dot_S1024x8_S8x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf

abbrev win0_0 : Pipeline.Window sig grid0 :=
  Pipeline.Window.ofSpec (Memref.whole main_arg0) S1024x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst) S8x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_cst_0) S8x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_cst_1) S64x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1024x8x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x8x128 : Shape := ⟨3, ![131072, 8, 128]⟩
abbrev S131072x8 : Shape := ⟨2, ![131072, 8]⟩
abbrev S8 : Shape := ⟨1, ![8]⟩
abbrev S8x8 : Shape := ⟨2, ![8, 8]⟩
abbrev S1x8 : Shape := ⟨2, ![1, 8]⟩
abbrev S_ : Shape := ⟨0, ![]⟩
abbrev S8x1 : Shape := ⟨2, ![8, 1]⟩
abbrev S131072x8x1 : Shape := ⟨3, ![131072, 8, 1]⟩
abbrev S1x8x8 : Shape := ⟨3, ![1, 8, 8]⟩
abbrev S131072x8x8 : Shape := ⟨3, ![131072, 8, 8]⟩
abbrev S131072x1x8 : Shape := ⟨3, ![131072, 1, 8]⟩
abbrev S131072 : Shape := ⟨1, ![131072]⟩
abbrev S131072x1 : Shape := ⟨2, ![131072, 1]⟩

abbrev nBuf : Space → Nat
  | .hbm => 82
  | .vmem => 0
  | .smem => 0
  | _ => 0

abbrev bufTy : (tb : Table) → Fin (tcTables nBuf tb) → BufTy
  | .hbm, ⟨0, _⟩ => ⟨S131072x8x128, .f32⟩
  | .hbm, ⟨1, _⟩ => ⟨S131072x8, .f32⟩
  | .hbm, ⟨2, _⟩ => ⟨S8, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S1x8, .f32⟩
  | .hbm, ⟨9, _⟩ => ⟨S131072x8, .f32⟩
  | .hbm, ⟨10, _⟩ => ⟨S131072x8, .f32⟩
  | .hbm, ⟨11, _⟩ => ⟨S_, .f32⟩
  | .hbm, ⟨12, _⟩ => ⟨S131072x8, .f32⟩
  | .hbm, ⟨13, _⟩ => ⟨S131072x8, .f32⟩
  | .hbm, ⟨14, _⟩ => ⟨S_, .f32⟩
  | .hbm, ⟨15, _⟩ => ⟨S131072x8, .f32⟩
  | .hbm, ⟨16, _⟩ => ⟨S131072x8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S1x8, .f32⟩
  | .hbm, ⟨21, _⟩ => ⟨S131072x8, .f32⟩
  | .hbm, ⟨22, _⟩ => ⟨S131072x8, .f32⟩
  | .hbm, ⟨23, _⟩ => ⟨S1x8, .f32⟩
  | .hbm, ⟨24, _⟩ => ⟨S131072x8, .f32⟩
  | .hbm, ⟨25, _⟩ => ⟨S131072x8, .f32⟩
  | .hbm, ⟨26, _⟩ => ⟨S8, .i32⟩
  | .hbm, ⟨27, _⟩ => ⟨S8x1, .i32⟩
  | .hbm, ⟨28, _⟩ => ⟨S1x8, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x8, .f32⟩
  | .hbm, ⟨34, _⟩ => ⟨S131072x8x1, .f32⟩
  | .hbm, ⟨35, _⟩ => ⟨S1x8x8, .f32⟩
  | .hbm, ⟨36, _⟩ => ⟨S131072x8x8, .f32⟩
  | .hbm, ⟨37, _⟩ => ⟨S131072x8x8, .f32⟩
  | .hbm, ⟨38, _⟩ => ⟨S131072x8x8, .f32⟩
  | .hbm, ⟨39, _⟩ => ⟨S131072x1x8, .f32⟩
  | .hbm, ⟨40, _⟩ => ⟨S_, .f32⟩
  | .hbm, ⟨41, _⟩ => ⟨S8x8, .f32⟩
  | .hbm, ⟨42, _⟩ => ⟨S8x8, .f32⟩
  | .hbm, ⟨43, _⟩ => ⟨S1x8x8, .f32⟩
  | .hbm, ⟨44, _⟩ => ⟨S131072x8x8, .f32⟩
  | .hbm, ⟨45, _⟩ => ⟨S131072x8x8, .f32⟩
  | .hbm, ⟨46, _⟩ => ⟨S131072x8x8, .f32⟩
  | .hbm, ⟨47, _⟩ => ⟨S131072x8x8, .f32⟩
  | .hbm, ⟨48, _⟩ => ⟨S_, .f32⟩
  | .hbm, ⟨49, _⟩ => ⟨S131072x8, .f32⟩
  | .hbm, ⟨50, _⟩ => ⟨S_, .f32⟩
  | .hbm, ⟨51, _⟩ => ⟨S131072x8, .f32⟩
  | .hbm, ⟨52, _⟩ => ⟨S131072x8, .f32⟩
  | .hbm, ⟨53, _⟩ => ⟨S_, .f32⟩
  | .hbm, ⟨54, _⟩ => ⟨S131072, .f32⟩
  | .hbm, ⟨55, _⟩ => ⟨S_, .f32⟩
  | .hbm, ⟨56, _⟩ => ⟨S131072, .f32⟩
  | .hbm, ⟨57, _⟩ => ⟨S131072, .f32⟩
  | .hbm, ⟨58, _⟩ => ⟨S131072x1, .f32⟩
  | .hbm, ⟨59, _⟩ => ⟨S131072x8, .f32⟩
  | .hbm, ⟨60, _⟩ => ⟨S131072x8, .f32⟩
  | .hbm, ⟨61, _⟩ => ⟨S131072x8, .f32⟩
  | .hbm, ⟨62, _⟩ => ⟨S_, .f32⟩
  | .hbm, ⟨63, _⟩ => ⟨S131072, .f32⟩
  | .hbm, ⟨64, _⟩ => ⟨S131072x1, .f32⟩
  | .hbm, ⟨65, _⟩ => ⟨S131072x1, .f32⟩
  | .hbm, ⟨66, _⟩ => ⟨S131072x8, .f32⟩
  | .hbm, ⟨67, _⟩ => ⟨S131072x8, .f32⟩
  | .hbm, ⟨68, _⟩ => ⟨S131072x8, .f32⟩
  | .hbm, ⟨69, _⟩ => ⟨S1x8, .f32⟩
  | .hbm, ⟨70, _⟩ => ⟨S131072x8, .f32⟩
  | .hbm, ⟨71, _⟩ => ⟨S131072x8, .f32⟩
  | .hbm, ⟨72, _⟩ => ⟨S1x8, .f32⟩
  | .hbm, ⟨73, _⟩ => ⟨S131072x8, .f32⟩
  | .hbm, ⟨74, _⟩ => ⟨S131072x8, .f32⟩
  | .hbm, ⟨75, _⟩ => ⟨S131072x8, .f32⟩
  | .hbm, ⟨76, _⟩ => ⟨S_, .f32⟩
  | .hbm, ⟨77, _⟩ => ⟨S131072x8, .f32⟩
  | .hbm, ⟨78, _⟩ => ⟨S131072x8, .f32⟩
  | .hbm, ⟨79, _⟩ => ⟨S131072x8x1, .f32⟩
  | .hbm, ⟨80, _⟩ => ⟨S131072x8x128, .f32⟩
  | .hbm, ⟨81, _⟩ => ⟨S131072x8x128, .f32⟩
  | _, _ => ⟨S131072x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_call1_cst : Ref sig .tc := ⟨.hbm, 53, rfl⟩
abbrev main_call1_v0 : Ref sig .tc := ⟨.hbm, 54, rfl⟩
abbrev main_call1_cst_0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_cst_1 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_cst : Ref sig .tc := ⟨.hbm, 76, rfl⟩
abbrev main_call2_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S_S131072x8 : S_.BroadcastsInDim S131072x8 (![] : Fin 0 → Fin S131072x8.rank)
  bcast_S_S8 : S_.BroadcastsInDim S8 (![] : Fin 0 → Fin S8.rank)
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  transposes_S8x8_S8x8_1_0 : S8x8.Transposes [1, 0] S8x8
  bcast_S131072x8_S131072x8x1_0_1 : S131072x8.BroadcastsInDim S131072x8x1 (![0, 1] : Fin 2 → Fin S131072x8x1.rank)
  bcast_S8x8_S1x8x8_1_2 : S8x8.BroadcastsInDim S1x8x8 (![1, 2] : Fin 2 → Fin S1x8x8.rank)
  bcast_S131072x8x1_S131072x8x8_0_1_2 : S131072x8x1.BroadcastsInDim S131072x8x8 (![0, 1, 2] : Fin 3 → Fin S131072x8x8.rank)
  bcast_S1x8x8_S131072x8x8_0_1_2 : S1x8x8.BroadcastsInDim S131072x8x8 (![0, 1, 2] : Fin 3 → Fin S131072x8x8.rank)
  bcast_S131072x8_S131072x1x8_0_2 : S131072x8.BroadcastsInDim S131072x1x8 (![0, 2] : Fin 2 → Fin S131072x1x8.rank)
  bcast_S_S8x8 : S_.BroadcastsInDim S8x8 (![] : Fin 0 → Fin S8x8.rank)
  bcast_S131072x1x8_S131072x8x8_0_1_2 : S131072x1x8.BroadcastsInDim S131072x8x8 (![0, 1, 2] : Fin 3 → Fin S131072x8x8.rank)
  reducesTo_S131072x8x8_S131072x8_d2 : S131072x8x8.ReducesTo [2] S131072x8
  h_S_ : 0 < S_.numel
  reducesTo_S131072x8_S131072_d1 : S131072x8.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x8_0_1 : S131072x1.BroadcastsInDim S131072x8 (![0, 1] : Fin 2 → Fin S131072x8.rank)
  bcast_S131072x8x1_S131072x8x128_0_1_2 : S131072x8x1.BroadcastsInDim S131072x8x128 (![0, 1, 2] : Fin 3 → Fin S131072x8x128.rank)

variable [Facts₀]

class Facts : Prop extends Facts₀ where

variable [Facts]
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«120597_j23321672417406_2_alg».proof.Proof.LibKeepdims
import proofs.«120597_j23321672417406_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.LibTrailingUnit.lean ====
/-
  A trailing unit axis: the cast [a, b] → [a, b, 1] and the broadcast [a, b, 1] → [a, b, c], read at an index.

  The cast keeps every entry at its row-major position, and the position of (p, q, 0) in [a, b, 1] is that of (p, q) in
  [a, b]. The broadcast copies the one entry of the last axis to every coordinate of the new axis, so at (p, q, e) it
  reads (p, q, 0). Together: a matrix spread along a new last axis, out[p, q, e] = x[p, q].
-/
import Idealize.ShloMosaic.Lib.ValueLayout
import Idealize.ShloMosaic.Lib.Pipeline.Value
import Idealize.ShloMosaic.Lib.ValueIdx

noncomputable section

namespace Cert.LibTrailingUnit

open Idealize.ShloMosaic Idealize.ShloMosaic.ValueIdx

variable {α : Type}

/-- A matrix [a, b] cast to [a, b, 1] reads, at (p, q, u), the matrix at (p, q). -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An array [a, b, 1] broadcast to [a, b, c] reads, at (p, q, e), the array at (p, q, u). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) (u : Fin 1) :
    broadcastTo ⟨3, ![a, b, c]⟩ v h (ix3 p q e) = v (ix3 p q u) := by
  refine broadcastTo_apply v h (ix3 p q e) (ix3 p q u) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show u.val = if (1 : ℕ) = 1 then 0 else e.val
    rw [if_pos rfl]; omega

/-- A matrix spread along a new last axis: out[p, q, e] = x[p, q]. -/
theorem spread_last_apply {a b c : ℕ} (x : (⟨2, ![a, b]⟩ : Shape).Idx → α) (hc : (⟨2, ![a, b]⟩ : Shape).ShapeCasts ⟨3, ![a, b, 1]⟩)
    (hb : (⟨3, ![a, b, 1]⟩ : Shape).Broadcasts ⟨3, ![a, b, c]⟩) (p : Fin a) (q : Fin b) (e : Fin c) :
    broadcastTo ⟨3, ![a, b, c]⟩ (shapeCast ⟨3, ![a, b, 1]⟩ x hc) hb (ix3 p q e) = x (ix2 p q) :=
  (broadcastTo_ab1_abc_apply _ hb p q e (0 : Fin 1)).trans (shapeCast_ab_ab1_apply x hc p q (0 : Fin 1))

end Cert.LibTrailingUnit

end
-- ==== Proof.LibSoftmaxRow.lean ====
/-
  A softmax row on the extended reals, in two spellings.

  A row of logits `x : Fin n → EReal` gives its maximum `rowMax x` (taken from −∞), the shifted exponentials
  `rowExp x c = exp (x c − rowMax x)` and their sum `rowSum x`.
  • Reciprocal spelling: each exponential times `1 / rowSum` (`attnK`), and a weighted sum of values scaled by `1 / rowSum`
    afterwards (`outK`).
  • Quotient spelling: each exponential divided by `0 + rowSum` (`attnR`), and the values weighted by the quotients (`outR`).
  The one and the zero are written as the f32 words a printed program carries (`0x3F800000`, `0x00000000`).
  Over a nonempty row of REAL logits the maximum is a real (`rowMax_coe`), every exponential a positive real and the sum a
  nonzero real (`row_real`), and the two spellings agree, for real values too (`attn_eq_of_real`, `out_eq_of_real`): division
  by a nonzero real is multiplication by its reciprocal, and a real factor moves across a finite sum.
  Also: the cast of a finite real sum is the sum of the casts (`coe_sum`), and the words of 1.0 and −∞ (`c_one`, `c_neginf`).
-/
import Idealize.ShloMosaic.PureOps.Ideal.Laws

noncomputable section

namespace Cert.LibSoftmaxRow

open Idealize.ShloMosaic

/-! ## Casts of finite sums -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The words of 1.0 and −∞ -/

theorem c_one : Ideal.ofBits .f32 0x3F800000#32 = 1 := by
  simp [Ideal.ofBits, Ideal.ieee, -EReal.coe_mul]; norm_num

theorem c_neginf : Ideal.ofBits .f32 0xFF800000#32 = ⊥ := by
  simp [Ideal.ofBits, Ideal.ieee]

variable {n : ℕ}

/-! ## The row's maximum, exponentials and sum -/

/-- The row's maximum, taken from −∞. -/
def rowMax (x : Fin n → EReal) : EReal := Finset.univ.fold max ⊥ x

/-- The exponential of a logit shifted by the row's maximum. -/
def rowExp (x : Fin n → EReal) (c : Fin n) : EReal := Ideal.exp (x c - rowMax x)

/-- The sum of the row's shifted exponentials. -/
def rowSum (x : Fin n → EReal) : EReal := ∑ c, rowExp x c

/-- The maximum of a nonempty row of reals is a real. -/
theorem rowMax_coe (hn : 0 < n) (x : Fin n → ℝ) : ∃ m : ℝ, rowMax (fun c => (x c : EReal)) = (m : EReal) := by
  have hlt : rowMax (fun c => (x c : EReal)) < ⊤ :=
    (Finset.fold_max_lt _).2 ⟨bot_lt_top, fun c _ => EReal.coe_lt_top _⟩
  have hgt : ⊥ < rowMax (fun c => (x c : EReal)) :=
    (Finset.lt_fold_max _).2 (Or.inr ⟨⟨0, hn⟩, Finset.mem_univ _, EReal.bot_lt_coe _⟩)
  exact ⟨(rowMax (fun c => (x c : EReal))).toReal, (EReal.coe_toReal hlt.ne hgt.ne').symm⟩

/-- Over a nonempty real row: every shifted exponential is a real, and their sum is a nonzero real. -/
theorem row_real (hn : 0 < n) (x : Fin n → ℝ) :
    ∃ (E : Fin n → ℝ) (L : ℝ), L ≠ 0 ∧ (∀ c, rowExp (fun c => (x c : EReal)) c = (E c : EReal))
      ∧ rowSum (fun c => (x c : EReal)) = (L : EReal) := by
  obtain ⟨m, hm⟩ := rowMax_coe hn x
  have hE : ∀ c, rowExp (fun c => (x c : EReal)) c = ((Real.exp (x c - m) : ℝ) : EReal) := fun c => by
    unfold rowExp
    rw [hm, ← EReal.coe_sub, Ideal.exp_coe]
  refine ⟨fun c => Real.exp (x c - m), ∑ c, Real.exp (x c - m), ?_, hE, ?_⟩
  · have : 0 < ∑ c : Fin n, Real.exp (x c - m) :=
      Finset.sum_pos (fun c _ => Real.exp_pos _) ⟨⟨0, hn⟩, Finset.mem_univ _⟩
    exact this.ne'
  · unfold rowSum
    rw [coe_sum]
    exact Finset.sum_congr rfl fun c _ => hE c

/-! ## The two spellings of the softmax row and of the output -/

/-- Each exponential times the reciprocal of the row's sum. -/
def attnK (x : Fin n → EReal) (c : Fin n) : EReal :=
  rowExp x c * Ideal.div (Ideal.ofBits .f32 0x3F800000#32) (rowSum x)

/-- The value rows weighted by the exponentials, scaled by the reciprocal of the row's sum afterwards. -/
def outK (x v : Fin n → EReal) : EReal :=
  (∑ c, rowExp x c * v c) * Ideal.div (Ideal.ofBits .f32 0x3F800000#32) (rowSum x)

/-- Each exponential divided by the row's sum (the sum started from zero). -/
def attnR (x : Fin n → EReal) (c : Fin n) : EReal :=
  Ideal.div (rowExp x c) (Ideal.ofBits .f32 0x00000000#32 + rowSum x)

/-- The value rows weighted by the quotients. -/
def outR (x v : Fin n → EReal) : EReal := ∑ c, attnR x c * v c

theorem attn_eq_of_real (hn : 0 < n) (x : Fin n → ℝ) (c : Fin n) :
    attnK (fun c => (x c : EReal)) c = attnR (fun c => (x c : EReal)) c := by
  obtain ⟨E, L, hL, hE, hS⟩ := row_real hn x
  unfold attnK attnR
  rw [hS, hE c, Ideal.ofBits_zero_f32, zero_add, c_one, Ideal.div_coe hL, Ideal.div_coe hL, one_mul]

theorem out_eq_of_real (hn : 0 < n) (x v : Fin n → ℝ) :
    outK (fun c => (x c : EReal)) (fun c => (v c : EReal)) = outR (fun c => (x c : EReal)) (fun c => (v c : EReal)) := by
  obtain ⟨E, L, hL, hE, hS⟩ := row_real hn x
  unfold outK outR attnR
  rw [hS, Ideal.ofBits_zero_f32, zero_add, c_one, Ideal.div_coe hL, one_mul]
  have h1 : (∑ c, rowExp (fun c => (x c : EReal)) c * (v c : EReal)) = ((∑ c, E c * v c : ℝ) : EReal) := by
    rw [coe_sum]
    exact Finset.sum_congr rfl fun c _ => by rw [hE c, EReal.coe_mul]
  have h2 : (∑ c, Ideal.div (rowExp (fun c => (x c : EReal)) c) (L : EReal) * (v c : EReal))
      = ((∑ c, E c * (1 / L) * v c : ℝ) : EReal) := by
    rw [coe_sum]
    exact Finset.sum_congr rfl fun c _ => by rw [hE c, Ideal.div_coe hL, EReal.coe_mul, EReal.coe_mul]
  rw [h1, h2, ← EReal.coe_mul, Finset.sum_mul]
  congr 1
  exact Finset.sum_congr rfl fun c _ => by ring

end Cert.LibSoftmaxRow

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.RowMath.lean ====
/-
  One row of the pairwise energy fusion, on the extended reals, in its two arrangements.

  A row has eight modes with bases φ i and a table of exponents g i j. For each ordered pair (i, j) the partial energy is
      φ i ^ g i j · φ j ^ (1 − g i j)                                  (the power arrangement)
  or, from the logarithms L i = log (φ i),
      exp (g i j · L i + (1 − g i j) · L j)                            (the exponential arrangement),
  where the second arrangement lists the 64 pairs along one axis, k = 8·i + j, and picks L i and L j out of the row of
  logarithms by 0/1 selection sums: Σ_b L b · [k / 8 = b] and Σ_b L b · [k % 8 = b]. The modal energy of mode i sums the
  partials over j — in the flat arrangement Σ_k p k · [k / 8 = i]. The gate is the softmax of the negated modal energies,
  written either as a quotient exp (m i − max m) / Σ exp (m − max m) or as exp ((m i − max m) − log (0 + Σ exp (m − max m))).

  For positive real bases and real exponents the two arrangements agree: x ^ y = exp (y · log x) for x > 0, exp turns the sum
  into the product, a 0/1 selection sum keeps exactly one term, the 64 flat pairs are the 8 × 8 pairs, and for a positive real
  sum S, exp (a − log S) = exp a / S. Positivity of the bases is essential: log of a negative base is −∞ by convention while
  its real power is not 0.
-/
import Idealize.ShloMosaic.PureOps.Ideal.Laws
import Idealize.ShloMosaic.Lib.ValueIdx
import proofs.«120597_j23321672417406_2_alg».proof.Proof.LibSoftmaxRow
import proofs.«120597_j23321672417406_2_alg».proof.Proof.LibRealEntries

noncomputable section

namespace Cert.Fusion

open Idealize.ShloMosaic Cert.LibSoftmaxRow Cert.LibRealEntries

/-- The f32 words of 1.0, 0.0 and −1.0, as both programs carry them. -/
abbrev oneW : EReal := Ideal.ofBits .f32 0x3F800000#32
abbrev zeroW : EReal := Ideal.ofBits .f32 0x00000000#32
abbrev negOneW : EReal := Ideal.ofBits .f32 0xBF800000#32

theorem negOneW_eq : negOneW = ((-1 : ℝ) : EReal) := by
  simp [Ideal.ofBits, Ideal.ieee, -EReal.coe_mul]; norm_num

theorem oneW_eq : oneW = ((1 : ℝ) : EReal) := by
  rw [show oneW = (1 : EReal) from c_one]; rfl

theorem zeroW_eq : zeroW = 0 := Ideal.ofBits_zero_f32

/-- The f32 word nearest to Euler's number, the floor of the corrected energies. -/
abbrev eW : EReal := Ideal.ofBits .f32 0x402DF854#32

/-- The base of one mode: the energy shifted by its running minimum, floored, scaled by 1 + w and shifted by b. -/
def phi (q qmin w b : EReal) : EReal := (oneW + w) * max (q - qmin + eW) eW + b

/-- The flat pair index k = 8·i + j. -/
def pairIx (i j : Fin 8) : Fin 64 := ⟨8 * i.val + j.val, by omega⟩

theorem pairIx_div (i j : Fin 8) : (pairIx i j).val / 8 = i.val := by simp only [pairIx]; omega
theorem pairIx_mod (i j : Fin 8) : (pairIx i j).val % 8 = j.val := by simp only [pairIx]; omega

/-- The first and the second mode of a flat pair index. -/
def hi (k : Fin 64) : Fin 8 := ⟨k.val / 8, by omega⟩
def lo (k : Fin 64) : Fin 8 := ⟨k.val % 8, by omega⟩

theorem hi_pairIx (i j : Fin 8) : hi (pairIx i j) = i := Fin.ext (pairIx_div i j)
theorem lo_pairIx (i j : Fin 8) : lo (pairIx i j) = j := Fin.ext (pairIx_mod i j)
theorem pairIx_hi_lo (k : Fin 64) : pairIx (hi k) (lo k) = k := Fin.ext (by simp only [pairIx, hi, lo]; omega)

/-- The 0/1 selections: mode b is the first (second) mode of the flat pair k. -/
def selDiv (b : Fin 8) (k : Fin 64) : EReal := if k.val / 8 = b.val then 1 else 0
def selMod (b : Fin 8) (k : Fin 64) : EReal := if k.val % 8 = b.val then 1 else 0

/-- A selection sum keeps the selected term. -/
theorem sum_selDiv (L : Fin 8 → EReal) (k : Fin 64) : ∑ b, L b * selDiv b k = L (hi k) := by
  rw [Finset.sum_eq_single (hi k)]
  · simp [selDiv, hi]
  · intro b _ hb
    have : ¬ k.val / 8 = b.val := fun h => hb (Fin.ext h.symm)
    simp [selDiv, this]
  · intro h; exact absurd (Finset.mem_univ _) h

theorem sum_selMod (L : Fin 8 → EReal) (k : Fin 64) : ∑ b, L b * selMod b k = L (lo k) := by
  rw [Finset.sum_eq_single (lo k)]
  · simp [selMod, lo]
  · intro b _ hb
    have : ¬ k.val % 8 = b.val := fun h => hb (Fin.ext h.symm)
    simp [selMod, this]
  · intro h; exact absurd (Finset.mem_univ _) h

/-- The 64 flat pairs are the 8 × 8 pairs. -/
def pairEquiv : Fin 8 × Fin 8 ≃ Fin 64 where
  toFun p := pairIx p.1 p.2
  invFun k := (hi k, lo k)
  left_inv p := Prod.ext (hi_pairIx p.1 p.2) (lo_pairIx p.1 p.2)
  right_inv k := pairIx_hi_lo k

/-- Summing the flat pairs whose first mode is a: the sum over the second mode. -/
theorem sum_flat_selDiv (p : Fin 64 → EReal) (a : Fin 8) : ∑ k, p k * selDiv a k = ∑ j, p (pairIx a j) := by
  rw [← Equiv.sum_comp pairEquiv, Fintype.sum_prod_type, Finset.sum_eq_single a]
  · refine Finset.sum_congr rfl fun j _ => ?_
    show p (pairIx a j) * selDiv a (pairIx a j) = _
    simp [selDiv, pairIx_div]
  · intro i _ hi'
    refine Finset.sum_eq_zero fun j _ => ?_
    show p (pairIx i j) * selDiv a (pairIx i j) = 0
    have : ¬ (pairIx i j).val / 8 = a.val := by rw [pairIx_div]; exact fun h => hi' (Fin.ext h)
    simp [selDiv, this]
  · intro h; exact absurd (Finset.mem_univ _) h

/-! ## The two arrangements of a partial energy -/

/-- The power arrangement of the partial energy of the pair (i, j). -/
def pairPow (φ : Fin 8 → EReal) (g : Fin 8 → Fin 8 → EReal) (i j : Fin 8) : EReal :=
  Ideal.pow (φ i) (g i j) * Ideal.pow (φ j) (oneW - g i j)

/-- The exponential arrangement at the flat pair k, from the row of logarithms and the flat exponents. -/
def pairExp (L : Fin 8 → EReal) (gf : Fin 64 → EReal) (k : Fin 64) : EReal :=
  Ideal.exp (gf k * (∑ b, L b * selDiv b k) + (oneW - gf k) * (∑ b, L b * selMod b k))

/-- For positive real bases and a real exponent: exp (g·log a + (1 − g)·log b) = a^g · b^(1 − g). -/
theorem exp_log_eq_pow (a b g : ℝ) (ha : 0 < a) (hb : 0 < b) :
    Ideal.exp ((g : EReal) * Ideal.log (a : EReal) + (oneW - (g : EReal)) * Ideal.log (b : EReal))
      = Ideal.pow (a : EReal) (g : EReal) * Ideal.pow (b : EReal) (oneW - (g : EReal)) := by
  rw [oneW_eq, Ideal.log_coe, Ideal.log_coe, if_neg (not_le.2 ha), if_neg (not_le.2 hb), ← EReal.coe_sub, ← EReal.coe_mul,
    ← EReal.coe_mul, ← EReal.coe_add, Ideal.exp_coe, Ideal.pow_coe_coe, Ideal.pow_coe_coe, ← EReal.coe_mul]
  congr 1
  show Real.exp (g * Real.log a + (1 - g) * Real.log b) = a ^ g * b ^ (1 - g)
  rw [Real.rpow_def_of_pos ha, Real.rpow_def_of_pos hb, ← Real.exp_add]
  congr 1
  ring

/-! ## The gate: a softmax of the negated modal energies, in two spellings -/

/-- The quotient spelling. -/
def gateQuot (m : Fin 8 → EReal) (a : Fin 8) : EReal := Ideal.div (rowExp m a) (rowSum m)

/-- The logarithmic spelling: the exponential of the log-softmax. -/
def gateLog (m : Fin 8 → EReal) (a : Fin 8) : EReal :=
  Ideal.exp ((m a - rowMax m) - Ideal.log (zeroW + rowSum m))

theorem gateLog_eq_gateQuot (m : Fin 8 → ℝ) (a : Fin 8) :
    gateLog (fun c => (m c : EReal)) a = gateQuot (fun c => (m c : EReal)) a := by
  obtain ⟨M, hM⟩ := rowMax_coe (n := 8) (by norm_num) m
  have hE : ∀ c, rowExp (fun c => (m c : EReal)) c = ((Real.exp (m c - M) : ℝ) : EReal) := fun c => by
    unfold rowExp
    rw [hM, ← EReal.coe_sub, Ideal.exp_coe]
  have hS : rowSum (fun c => (m c : EReal)) = ((∑ c, Real.exp (m c - M) : ℝ) : EReal) := by
    unfold rowSum
    rw [coe_sum]
    exact Finset.sum_congr rfl fun c _ => hE c
  have hpos : 0 < ∑ c : Fin 8, Real.exp (m c - M) :=
    Finset.sum_pos (fun c _ => Real.exp_pos _) ⟨0, Finset.mem_univ _⟩
  unfold gateLog gateQuot
  dsimp only
  rw [hS, hE a, hM, zeroW_eq, zero_add, Ideal.log_coe, if_neg (not_le.2 hpos), ← EReal.coe_sub, ← EReal.coe_sub,
    Ideal.exp_coe, Ideal.div_coe hpos.ne', ← EReal.coe_mul]
  congr 1
  rw [Real.exp_sub, Real.exp_log hpos]
  ring

/-! ## The row's gate in the two arrangements -/

/-- The gate of mode a in the flat exponential arrangement. -/
def alphaExp (L : Fin 8 → EReal) (gf : Fin 64 → EReal) (a : Fin 8) : EReal :=
  gateQuot (fun i => negOneW * ∑ k, pairExp L gf k * selDiv i k) a

/-- The gate of mode a in the power arrangement. -/
def alphaPow (φ : Fin 8 → EReal) (g : Fin 8 → Fin 8 → EReal) (a : Fin 8) : EReal :=
  gateLog (fun i => negOneW * (zeroW + ∑ j, pairPow φ g i j)) a

/-- Positive real bases and real exponents: the two arrangements of the row's gate agree. -/
theorem alphaPow_eq_alphaExp (φ : Fin 8 → EReal) (g : Fin 8 → Fin 8 → EReal) (hφ : ∀ i, IsReal (φ i)) (hpos : ∀ i, 0 < φ i)
    (hg : ∀ i j, IsReal (g i j)) (a : Fin 8) :
    alphaPow φ g a = alphaExp (fun b => Ideal.log (φ b)) (fun k => g (hi k) (lo k)) a := by
  choose φr hφr using hφ
  choose gr hgr using hg
  have hφpos : ∀ i, 0 < φr i := fun i => by have := hpos i; rw [hφr i] at this; exact_mod_cast this
  -- each partial energy, arrangement by arrangement
  have hpair : ∀ i j, pairExp (fun b => Ideal.log (φ b)) (fun k => g (hi k) (lo k)) (pairIx i j) = pairPow φ g i j := fun i j => by
    unfold pairExp pairPow
    dsimp only
    rw [sum_selDiv, sum_selMod, hi_pairIx, lo_pairIx, hφr i, hφr j, hgr i j]
    exact exp_log_eq_pow (φr i) (φr j) (gr i j) (hφpos i) (hφpos j)
  have hpairR : ∀ i j, pairPow φ g i j = ((φr i ^ gr i j * φr j ^ (1 - gr i j) : ℝ) : EReal) := fun i j => by
    unfold pairPow
    rw [hφr i, hφr j, hgr i j, oneW_eq, ← EReal.coe_sub, Ideal.pow_coe_coe, Ideal.pow_coe_coe, ← EReal.coe_mul]
    rfl
  -- the modal energies agree, and are real
  have hmodal : ∀ i, (∑ k, pairExp (fun b => Ideal.log (φ b)) (fun k => g (hi k) (lo k)) k * selDiv i k)
      = zeroW + ∑ j, pairPow φ g i j := fun i => by
    rw [sum_flat_selDiv, zeroW_eq, zero_add]
    exact Finset.sum_congr rfl fun j _ => hpair i j
  have hreal : ∀ i, negOneW * (zeroW + ∑ j, pairPow φ g i j)
      = (((-1 : ℝ) * ∑ j, (φr i ^ gr i j * φr j ^ (1 - gr i j)) : ℝ) : EReal) := fun i => by
    rw [negOneW_eq, zeroW_eq, zero_add, EReal.coe_mul, coe_sum]
    congr 1
    exact Finset.sum_congr rfl fun j _ => hpairR i j
  unfold alphaPow alphaExp
  have e1 : (fun i => negOneW * ∑ k, pairExp (fun b => Ideal.log (φ b)) (fun k => g (hi k) (lo k)) k * selDiv i k)
      = fun i => negOneW * (zeroW + ∑ j, pairPow φ g i j) := funext fun i => by rw [hmodal i]
  rw [e1]
  have e2 : (fun i => negOneW * (zeroW + ∑ j, pairPow φ g i j))
      = fun i => (((-1 : ℝ) * ∑ j, (φr i ^ gr i j * φr j ^ (1 - gr i j)) : ℝ) : EReal) := funext hreal
  rw [e2]
  exact gateLog_eq_gateQuot _ a

/-! ## The fused output, entry by entry -/

open Idealize.ShloMosaic.ValueIdx in
/-- The output at row n, mode a, lane d: the mode's gate through tanh and the rectifier, times the input entry. The bases of
    row n come from the energies Q, their running minima QM, the scales W and the shifts B; the exponents are the symmetrized
    table GS read at the two modes of each flat pair. -/
def outAt (X : (⟨3, ![131072, 8, 128]⟩ : Shape).Idx → EReal) (Q : (⟨2, ![131072, 8]⟩ : Shape).Idx → EReal)
    (W B Gv BI QM : (⟨1, ![8]⟩ : Shape).Idx → EReal) (GS : (⟨2, ![8, 8]⟩ : Shape).Idx → EReal)
    (n : Fin 131072) (a : Fin 8) (d : Fin 128) : EReal :=
  max (Ideal.tanh (Gv (ix1 a) * alphaExp (fun b => Ideal.log (phi (Q (ix2 n b)) (QM (ix1 b)) (W (ix1 b)) (B (ix1 b))))
      (fun k => GS (ix2 (hi k) (lo k))) a + BI (ix1 a))) zeroW * X (ix3 n a d)

open Idealize.ShloMosaic.ValueIdx in
/-- The whole output array. -/
def fused (X : (⟨3, ![131072, 8, 128]⟩ : Shape).Idx → EReal) (Q : (⟨2, ![131072, 8]⟩ : Shape).Idx → EReal)
    (W B Gv BI QM : (⟨1, ![8]⟩ : Shape).Idx → EReal) (GS : (⟨2, ![8, 8]⟩ : Shape).Idx → EReal) :
    (⟨3, ![131072, 8, 128]⟩ : Shape).Idx → EReal :=
  fun i => outAt X Q W B Gv BI QM GS (i 0) (i 1) (i 2)

end Cert.Fusion

end
-- ==== Proof.KernelRow.lean ====
/-
  One row of the kernel's block, read at an index.

  The body computes, for each of the block's 1024 rows r, first the 64 pairwise partial energies (one payload) and then the
  gated output (a second payload):
  • partials[r, k] = exp (gf[k] · Σ_a log φ[r, a] · Ri[a, k] + om[k] · Σ_a log φ[r, a] · Rj[a, k]), where
    φ[r, a] = (1 + w[a]) · max (q[r, a] − qmin[a] + e, e) + b[a] and Ri, Rj are the two [8, 64] matrices the body multiplies by;
  • out[r, a, d] = max (tanh (G[a] · α[r, a] + bias[a]), 0) · x[r, a, d], where α[r, ·] is the softmax (entry over row sum,
    below the row maximum) of m[r, a'] = −1 · Σ_k partials[r, k] · S[k, a'].
  Both are read entry by entry: a row vector [8] or [64] spread over the rows reads its own entry, a product with a matrix into a
  zero accumulator is the sum over the contracted axis, the row maximum and the row sum kept as a column and spread back are
  the fold and the sum of the row, and a matrix spread along a new last axis reads its own entry.
-/
import proofs.«120597_j23321672417406_2_alg».proof.Proof.Gen.KernelIdeal.Skeleton
import proofs.«120597_j23321672417406_2_alg».proof.Proof.LibKeepdims
import proofs.«120597_j23321672417406_2_alg».proof.Proof.LibPlainMatmul
import proofs.«120597_j23321672417406_2_alg».proof.Proof.LibSoftmaxBlock
import proofs.«120597_j23321672417406_2_alg».proof.Proof.LibTrailingUnit
import proofs.«120597_j23321672417406_2_alg».proof.Proof.RowMath
import Idealize.ShloMosaic.Lib.ValueIdx
import Idealize.ShloMosaic.Lib.ValueLayout
import Idealize.ShloMosaic.Lib.Pipeline.Value

noncomputable section

namespace Cert.Fusion

open Idealize.ShloMosaic Idealize.ShloMosaic.ValueIdx Cert.KernelIdeal Cert.KernelIdeal.Gen Cert.LibSoftmaxRow

/-- The two contractions of the body are plain matrix products. -/
theorem dot_8_64 : dot_S1024x8_S8x64_S1024x64_1_0_0_1_n_n = DotDims.plain 1024 8 64 := rfl
theorem dot_64_8 : dot_S1024x64_S64x8_S1024x8_1_0_0_1_n_n = DotDims.plain 1024 64 8 := rfl

/-- The pairwise partial energies of row r at the flat pair k. -/
theorem partials_apply (v0 : FVec Ideal S1024x8 .f32) (v1 v2 v3 : FVec Ideal S8 .f32) (v22 v24 : FVec Ideal S8x64 .f32)
    (v26 v28 : FVec Ideal S64 .f32) (r : Fin 1024) (k : Fin 64) :
    k0_pay2 (F := Ideal) v0 v1 v2 v3 v22 v24 v26 v28 (ix2 r k)
      = Ideal.exp (v26 (ix1 k) * (∑ a : Fin 8, Ideal.log (phi (v0 (ix2 r a)) (v1 (ix1 a)) (v2 (ix1 a)) (v3 (ix1 a))) * v22 (ix2 a k))
          + v28 (ix1 k) * (∑ a : Fin 8, Ideal.log (phi (v0 (ix2 r a)) (v1 (ix1 a)) (v2 (ix1 a)) (v3 (ix1 a))) * v24 (ix2 a k))) := by
  unfold k0_pay2
  have hrow8 : ∀ (v : FVec Ideal S8 .f32) (a : Fin 8),
      broadcastTo S1024x8 (shapeCast S1x8 v shapeCasts_S8_S1x8) broadcasts_S1x8_S1024x8 (ix2 r a) = v (ix1 a) := fun v a =>
    (broadcastTo_1b_ab_apply _ _ r a).trans (shapeCast_a_1a_apply v _ 0 a)
  have hrow64 : ∀ (v : FVec Ideal S64 .f32),
      broadcastTo S1024x64 (shapeCast S1x64 (shapeCast S64 v shapeCasts_S64_S64) shapeCasts_S64_S1x64) broadcasts_S1x64_S1024x64 (ix2 r k)
        = v (ix1 k) := fun v =>
    ((broadcastTo_1b_ab_apply _ _ r k).trans (shapeCast_a_1a_apply _ _ 0 k)).trans (congrFun (shapeCast_self v _) _)
  have hmm : ∀ (L : FVec Ideal S1024x8 .f32) (R : FVec Ideal S8x64 .f32),
      matmul dot_S1024x8_S8x64_S1024x64_1_0_0_1_n_n (some ContractPrecision.fp32) L R (constant S1024x64 .f32 0x00000000#32) (ix2 r k)
        = ∑ a : Fin 8, L (ix2 r a) * R (ix2 a k) := fun L R => by
    rw [dot_8_64]; exact matmul_plain_zero_apply 1024 8 64 _ L R r k
  have hexp : ∀ (X : FVec Ideal S1024x64 .f32) (i : S1024x64.Idx), exp X i = Ideal.exp (X i) := fun _ _ => rfl
  have hlog : ∀ (X : FVec Ideal S1024x8 .f32) (i : S1024x8.Idx), log X i = Ideal.log (X i) := fun _ _ => rfl
  simp only [hexp, hlog, addf_apply, mulf_apply, maximumf_apply, subf_apply, broadcast_apply, hrow8, hrow64, hmm]
  rfl

/-- The softmax of a block of logits, row by row: entry over row sum, below the row maximum. -/
theorem softmax_apply (M : FVec Ideal S1024x8 .f32) (r : Fin 1024) (a : Fin 8) :
    divf (exp (subf M (broadcastTo S1024x8 (shapeCast S1024x1 (multiReduction .maximumf [1] S1024 M 0xFF800000#32 reduces_S1024x8_S1024 (.inl rfl) rfl) shapeCasts_S1024_S1024x1) broadcasts_S1024x1_S1024x8)))
      (broadcastTo S1024x8 (shapeCast S1024x1 (multiReduction .add [1] S1024
        (exp (subf M (broadcastTo S1024x8 (shapeCast S1024x1 (multiReduction .maximumf [1] S1024 M 0xFF800000#32 reduces_S1024x8_S1024 (.inl rfl) rfl) shapeCasts_S1024_S1024x1) broadcasts_S1024x1_S1024x8)))
        0x00000000#32 reduces_S1024x8_S1024 (.inl rfl) rfl) shapeCasts_S1024_S1024x1) broadcasts_S1024x1_S1024x8) (ix2 r a)
      = gateQuot (fun a' => M (ix2 r a')) a := by
  have hE : ∀ c : Fin 8,
      exp (subf M (broadcastTo S1024x8 (shapeCast S1024x1 (multiReduction .maximumf [1] S1024 M 0xFF800000#32 reduces_S1024x8_S1024 (.inl rfl) rfl) shapeCasts_S1024_S1024x1) broadcasts_S1024x1_S1024x8)) (ix2 r c)
        = rowExp (fun a' => M (ix2 r a')) c := fun c =>
    (Cert.LibSoftmaxBlock.expBelowRowMax_apply M 0xFF800000#32 reduces_S1024x8_S1024 (.inl rfl) rfl shapeCasts_S1024_S1024x1 broadcasts_S1024x1_S1024x8 r c).trans (by
      unfold rowExp rowMax Cert.LibMaxReduce.foldMax
      rw [c_neginf])
  refine (Cert.LibSoftmaxBlock.overRowSum_apply _ 0x00000000#32 reduces_S1024x8_S1024 (.inl rfl) rfl shapeCasts_S1024_S1024x1 broadcasts_S1024x1_S1024x8 r a).trans ?_
  unfold gateQuot rowSum
  rw [hE a]
  exact congrArg _ (Finset.sum_congr rfl fun c _ => hE c)

/-- The gated output of row r at mode a and lane d. -/
theorem gated_apply (v4 v5 : FVec Ideal S8 .f32) (v37 : FVec Ideal S1024x64 .f32) (v38 : FVec Ideal S64x8 .f32)
    (v61 : FVec Ideal S1024x8x128 .f32) (r : Fin 1024) (a : Fin 8) (d : Fin 128) :
    k0_pay1 (F := Ideal) v4 v5 v37 v38 v61 (ix3 r a d)
      = max (Ideal.tanh (v4 (ix1 a) * gateQuot (fun a' => negOneW * ∑ k : Fin 64, v37 (ix2 r k) * v38 (ix2 k a')) a + v5 (ix1 a))) zeroW
          * v61 (ix3 r a d) := by
  unfold k0_pay1
  have hrow8 : ∀ (v : FVec Ideal S8 .f32),
      broadcastTo S1024x8 (shapeCast S1x8 v shapeCasts_S8_S1x8) broadcasts_S1x8_S1024x8 (ix2 r a) = v (ix1 a) := fun v =>
    (broadcastTo_1b_ab_apply _ _ r a).trans (shapeCast_a_1a_apply v _ 0 a)
  have hmm : ∀ a' : Fin 8,
      matmul dot_S1024x64_S64x8_S1024x8_1_0_0_1_n_n (some ContractPrecision.fp32) v37 v38 (constant S1024x8 .f32 0x00000000#32) (ix2 r a')
        = ∑ k : Fin 64, v37 (ix2 r k) * v38 (ix2 k a') := fun a' => by
    rw [dot_64_8]; exact matmul_plain_zero_apply 1024 64 8 _ v37 v38 r a'
  have hM : (fun a' => (mulf (broadcast S1024x8 (FloatOps.ofBits (F := Ideal) .f32 0xBF800000#32))
      (matmul dot_S1024x64_S64x8_S1024x8_1_0_0_1_n_n (some ContractPrecision.fp32) v37 v38 (constant S1024x8 .f32 0x00000000#32)) : FVec Ideal S1024x8 .f32) (ix2 r a'))
      = fun a' => negOneW * ∑ k : Fin 64, v37 (ix2 r k) * v38 (ix2 k a') := funext fun a' => by
    rw [mulf_apply, broadcast_apply, hmm a']; rfl
  have htanh : ∀ (X : FVec Ideal S1024x8 .f32) (i : S1024x8.Idx), tanh X i = Ideal.tanh (X i) := fun _ _ => rfl
  rw [mulf_apply, Cert.LibTrailingUnit.spread_last_apply _ shapeCasts_S1024x8_S1024x8x1 broadcasts_S1024x8x1_S1024x8x128 r a d,
    maximumf_apply, htanh, addf_apply, mulf_apply, hrow8, hrow8, broadcast_apply, softmax_apply _ r a, hM]
  rfl

end Cert.Fusion

end
-- ==== Proof.KernelArray.lean ====
/-
  The kernel's output array, from its blocks.

  The grid has 128 points; point t works on rows 1024·t … 1024·t + 1023 of the energies and of the input, and on the whole
  of every small operand: the scales, shifts, gate weights and biases, the running minima, the flat exponent table and its
  complement, and the three 0/1 selection matrices. Before the region the host has built the symmetrized exponent table
  (kept here as the region finds it), laid it out flat (entry k of the flat table is entry (k / 8, k % 8) of the table),
  taken one minus it, and written the three selection matrices as literal tables: entry (a, k) of the first is 1 exactly when
  k / 8 = a, of the second when k % 8 = a, and entry (k, a) of the third when k / 8 = a.
  So what point t writes back is block t of the fused output, the blocks cover the array, and the array ends holding the fused
  output of the argument arrays.
-/
import proofs.«120597_j23321672417406_2_alg».proof.Proof.Gen.KernelIdeal.Value
import proofs.«120597_j23321672417406_2_alg».proof.Proof.KernelRow
import Idealize.ShloMosaic.Lib.StableHlo.Run
import Idealize.ShloMosaic.Lib.Pipeline.Value

noncomputable section

namespace Cert.Fusion

open Idealize.ShloMosaic Idealize.ShloMosaic.ValueIdx Idealize.ShloMosaic.StableHlo Idealize.ShloMosaic.TcCoe Idealize.SL.Sem
open Cert.KernelIdeal Cert.KernelIdeal.Gen Cert.KernelIdeal.Value Cert.LibSoftmaxRow
open Idealize.ShloMosaic.Pipeline (Dat)

variable (m : (ℓ : Loc nD τ sig) → Buf (Elt Ideal) ℓ) (ρ : Dev nD → PrngReg)

/-! ## What the host leaves for the region -/

/-- The flat exponent table is the symmetrized table laid out row by row. -/
theorem gflat_at (c : Dev nD) (k : Fin 64) :
    (V m c main_v8 : S64.Idx → EReal) (ix1 k) = (V m c main_v7 : S8x8.Idx → EReal) (ix2 (hi k) (lo k)) := by
  dsimp only [V]
  simp only [hostOps0, hostOps0_1, hostOps0_2, List.flatten_cons, List.flatten_nil, List.append_nil, List.cons_append, List.nil_append]
  after_results
  exact shapeCast_apply _ shapeCasts_S8x8_S64 (ix1 k) (ix2 (hi k) (lo k)) (by
    rw [Shape.rowMajor_val_two, Shape.rowMajor_val_one]
    show (hi k).val * 8 + (lo k).val = k.val
    simp only [hi, lo]; omega)

/-- Its complement: one minus each entry. -/
theorem omg_at (c : Dev nD) (k : Fin 64) :
    (V m c main_v10 : S64.Idx → EReal) (ix1 k) = oneW - (V m c main_v8 : S64.Idx → EReal) (ix1 k) := by
  dsimp only [V]
  simp only [hostOps0, hostOps0_1, hostOps0_2, List.flatten_cons, List.flatten_nil, List.append_nil, List.cons_append, List.nil_append]
  after_results
  rfl

/-- The three literal tables hold 1.0 exactly at the selected positions, 0.0 elsewhere. -/
theorem lit0_eq : ∀ i : Fin 512, lit0 i = if (i.val % 64) / 8 = i.val / 64 then 0x3F800000#32 else 0x00000000#32 := by
  decide +kernel
theorem lit1_eq : ∀ i : Fin 512, lit1 i = if (i.val % 64) % 8 = i.val / 64 then 0x3F800000#32 else 0x00000000#32 := by
  decide +kernel
theorem lit2_eq : ∀ i : Fin 512, lit2 i = if (i.val / 8) / 8 = i.val % 8 then 0x3F800000#32 else 0x00000000#32 := by
  decide +kernel

theorem word_sel (p : Prop) [Decidable p] :
    Ideal.ofBits .f32 (if p then 0x3F800000#32 else 0x00000000#32) = if p then (1 : EReal) else 0 := by
  split
  · exact c_one
  · exact Ideal.ofBits_zero_f32

/-- The first selection matrix: entry (a, k) selects the pairs whose first mode is a. -/
theorem selA_at (c : Dev nD) (a : Fin 8) (k : Fin 64) : (V m c main_cst : S8x64.Idx → EReal) (ix2 a k) = selDiv a k := by
  dsimp only [V]
  simp only [hostOps0, hostOps0_1, hostOps0_2, List.flatten_cons, List.flatten_nil, List.append_nil, List.cons_append, List.nil_append]
  after_results
  have hv : (S8x64.rowMajor (ix2 a k)).val = a.val * 64 + k.val := by rw [Shape.rowMajor_val_two]; rfl
  have hl := lit0_eq (S8x64.rowMajor (ix2 a k))
  show Ideal.ofBits .f32 (lit0 (S8x64.rowMajor (ix2 a k))) = _
  have e1 : (a.val * 64 + k.val) % 64 = k.val := by
    rw [Nat.add_comm, Nat.add_mul_mod_self_right]; exact Nat.mod_eq_of_lt k.isLt
  have e2 : (a.val * 64 + k.val) / 64 = a.val := by
    rw [Nat.add_comm, Nat.add_mul_div_right _ _ (by norm_num : 0 < 64), Nat.div_eq_of_lt k.isLt, Nat.zero_add]
  rw [hl, word_sel, hv, e1, e2]
  rfl

/-- The second selection matrix: entry (a, k) selects the pairs whose second mode is a. -/
theorem selB_at (c : Dev nD) (a : Fin 8) (k : Fin 64) : (V m c main_cst_0 : S8x64.Idx → EReal) (ix2 a k) = selMod a k := by
  dsimp only [V]
  simp only [hostOps0, hostOps0_1, hostOps0_2, List.flatten_cons, List.flatten_nil, List.append_nil, List.cons_append, List.nil_append]
  after_results
  have hv : (S8x64.rowMajor (ix2 a k)).val = a.val * 64 + k.val := by rw [Shape.rowMajor_val_two]; rfl
  have hl := lit1_eq (S8x64.rowMajor (ix2 a k))
  show Ideal.ofBits .f32 (lit1 (S8x64.rowMajor (ix2 a k))) = _
  have e1 : (a.val * 64 + k.val) % 64 = k.val := by
    rw [Nat.add_comm, Nat.add_mul_mod_self_right]; exact Nat.mod_eq_of_lt k.isLt
  have e2 : (a.val * 64 + k.val) / 64 = a.val := by
    rw [Nat.add_comm, Nat.add_mul_div_right _ _ (by norm_num : 0 < 64), Nat.div_eq_of_lt k.isLt, Nat.zero_add]
  rw [hl, word_sel, hv, e1, e2]
  rfl

/-- The third selection matrix, the transpose of the first: entry (k, a). -/
theorem selC_at (c : Dev nD) (k : Fin 64) (a : Fin 8) : (V m c main_cst_1 : S64x8.Idx → EReal) (ix2 k a) = selDiv a k := by
  dsimp only [V]
  simp only [hostOps0, hostOps0_1, hostOps0_2, List.flatten_cons, List.flatten_nil, List.append_nil, List.cons_append, List.nil_append]
  after_results
  have hv : (S64x8.rowMajor (ix2 k a)).val = k.val * 8 + a.val := by rw [Shape.rowMajor_val_two]; rfl
  have hl := lit2_eq (S64x8.rowMajor (ix2 k a))
  show Ideal.ofBits .f32 (lit2 (S64x8.rowMajor (ix2 k a))) = _
  have e1 : (k.val * 8 + a.val) / 8 = k.val := by
    rw [Nat.add_comm, Nat.add_mul_div_right _ _ (by norm_num : 0 < 8), Nat.div_eq_of_lt a.isLt, Nat.zero_add]
  have e2 : (k.val * 8 + a.val) % 8 = a.val := by
    rw [Nat.add_comm, Nat.add_mul_mod_self_right]; exact Nat.mod_eq_of_lt a.isLt
  rw [hl, word_sel, hv, e1, e2]
  rfl

/-! ## One block, entry by entry -/

/-- A block whose rows are rows `n r` of the arrays and whose small operands are the arrays themselves computes those rows of the
    fused output. -/
theorem block_eq (x0 : FVec Ideal S1024x8x128 .f32) (x1 : FVec Ideal S1024x8 .f32) (x2 x3 : FVec Ideal S8 .f32)
    (x4 x5 : FVec Ideal S64 .f32) (x6 x7 x8 : FVec Ideal S8 .f32) (x9 x10 : FVec Ideal S8x64 .f32) (x11 : FVec Ideal S64x8 .f32)
    (X : (⟨3, ![131072, 8, 128]⟩ : Shape).Idx → EReal) (Q : (⟨2, ![131072, 8]⟩ : Shape).Idx → EReal)
    (W B Gv BI QM : (⟨1, ![8]⟩ : Shape).Idx → EReal) (GS : (⟨2, ![8, 8]⟩ : Shape).Idx → EReal)
    (n : Fin 1024 → Fin 131072)
    (h0 : ∀ r a d, x0 (ix3 r a d) = X (ix3 (n r) a d)) (h1 : ∀ r b, x1 (ix2 r b) = Q (ix2 (n r) b))
    (h2 : ∀ b, x2 (ix1 b) = W (ix1 b)) (h3 : ∀ b, x3 (ix1 b) = B (ix1 b))
    (h4 : ∀ k, x4 (ix1 k) = GS (ix2 (hi k) (lo k))) (h5 : ∀ k, x5 (ix1 k) = oneW - x4 (ix1 k))
    (h6 : ∀ b, x6 (ix1 b) = Gv (ix1 b)) (h7 : ∀ b, x7 (ix1 b) = BI (ix1 b)) (h8 : ∀ b, x8 (ix1 b) = QM (ix1 b))
    (h9 : ∀ b k, x9 (ix2 b k) = selDiv b k) (h10 : ∀ b k, x10 (ix2 b k) = selMod b k) (h11 : ∀ k b, x11 (ix2 k b) = selDiv b k)
    (r : Fin 1024) (a : Fin 8) (d : Fin 128) :
    k0_pay1 (F := Ideal) x6 x7 (k0_pay2 (F := Ideal) x1 x8 x2 x3 x9 x10 x4 x5) x11 x0 (ix3 r a d)
      = outAt X Q W B Gv BI QM GS (n r) a d := by
  rw [gated_apply]
  unfold outAt alphaExp pairExp
  simp only [partials_apply, h0, h1, h2, h3, h5, h4, h6, h7, h8, h9, h10, h11]

/-! ## From blocks to the array -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the input and the energies move with the output, block t at point t; every other
    operand stays at its one block. -/
theorem idx_facts : ∀ t : Fin cfg0.N,
    win0_12.index t (0 : Fin 3) = t.val ∧ win0_12.index t (1 : Fin 3) = 0 ∧ win0_12.index t (2 : Fin 3) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0 ∧ win0_7.index t (0 : Fin 1) = 0
    ∧ win0_8.index t (0 : Fin 1) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The fused output of the arrays as the region finds them. -/
abbrev fusedV (c : Dev nD) : S131072x8x128.Idx → EReal :=
  fused (V m c main_arg0) (V m c main_arg1) (V m c main_arg2) (V m c main_arg3) (V m c main_arg5) (V m c main_arg6) (V m c main_arg7)
    (V m c main_v7)

/-- What point t writes back is block t of the fused output. -/
theorem flushed_eq (c : Dev nD) (t : Fin cfg0.N) :
    (dats m 0 c).flushed 12 t = ((cfg0.win 12).blk t).view.read (Elt Ideal) (fusedV m c) := by
  have hN : t.val < 128 := by have := t.isLt; have hN' : cfg0.N = 128 := N_0; omega
  obtain ⟨i12a, i12b, i12c, i0a, i0b, i0c, i1a, i1b, i2, i3, i4, i5, i6, i7, i8, i9a, i9b, i10a, i10b, i11a, i11b⟩ := idx_facts t
  show (cfg0.win 12).cut (grid0.coords t) ((dats m 0 c).after 12 t) = _
  rw [after0_12]
  unfold out0_12
  rw [View.canon_unit_zero hz3]
  simp only [View.ld_unit_zero (S := S1024x8x128) hz3, View.ld_unit_zero (S := S1024x8) hz2, View.ld_unit_zero (S := S8) hz1,
    View.ld_unit_zero (S := S8x64) hz2, View.ld_unit_zero (S := S64) hz1, View.ld_unit_zero (S := S64x8) hz2]
  funext j
  obtain ⟨r, a, d, rfl⟩ : ∃ (r : Fin 1024) (a : Fin 8) (d : Fin 128), j = ix3 r a d := ⟨j 0, j 1, j 2, eq_ix3 j⟩
  show k0_pay1 (F := Ideal) (iblk m c 6 t) (iblk m c 7 t) (k0_pay2 (F := Ideal) (iblk m c 1 t) (iblk m c 8 t) (iblk m c 2 t) (iblk m c 3 t)
      (iblk m c 9 t) (iblk m c 10 t) (iblk m c 4 t) (iblk m c 5 t)) (iblk m c 11 t) (iblk m c 0 t) (ix3 r a d)
    = fusedV m c (((cfg0.win 12).blk t).view.emb (ix3 r a d))
  have hrow : ∀ r : Fin 1024, 1024 * t.val + r.val < 131072 := fun r => by have := r.isLt; omega
  refine (block_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)
    (V m c main_arg0) (V m c main_arg1) (V m c main_arg2) (V m c main_arg3) (V m c main_arg5) (V m c main_arg6) (V m c main_arg7)
    (V m c main_v7) (fun r => ⟨1024 * t.val + r.val, hrow r⟩) ?_ ?_ ?_ ?_ ?_ ?_ ?_ ?_ ?_ ?_ ?_ ?_ r a d).trans ?_
  · intro r a d
    show V m c main_arg0 (((cfg0.win 0).blk t).view.emb (ix3 r a d)) = V m c main_arg0 (ix3 ⟨1024 * t.val + r.val, hrow r⟩ a d)
    refine congrArg _ (funext fun ax => Fin.ext ?_)
    match ax with
    | ⟨0, _⟩ => show win0_0.index t (0 : Fin 3) * 1024 + 1 * r.val = 1024 * t.val + r.val; omega
    | ⟨1, _⟩ => show win0_0.index t (1 : Fin 3) * 8 + 1 * a.val = a.val; omega
    | ⟨2, _⟩ => show win0_0.index t (2 : Fin 3) * 128 + 1 * d.val = d.val; omega
  · intro r b
    show V m c main_arg1 (((cfg0.win 1).blk t).view.emb (ix2 r b)) = V m c main_arg1 (ix2 ⟨1024 * t.val + r.val, hrow r⟩ b)
    refine congrArg _ (funext fun ax => Fin.ext ?_)
    match ax with
    | ⟨0, _⟩ => show win0_1.index t (0 : Fin 2) * 1024 + 1 * r.val = 1024 * t.val + r.val; omega
    | ⟨1, _⟩ => show win0_1.index t (1 : Fin 2) * 8 + 1 * b.val = b.val; omega
  · intro b
    show V m c main_arg2 (((cfg0.win 2).blk t).view.emb (ix1 b)) = V m c main_arg2 (ix1 b)
    refine congrArg _ (funext fun ax => Fin.ext ?_)
    match ax with
    | ⟨0, _⟩ => show win0_2.index t (0 : Fin 1) * 8 + 1 * b.val = b.val; omega
  · intro b
    show V m c main_arg3 (((cfg0.win 3).blk t).view.emb (ix1 b)) = V m c main_arg3 (ix1 b)
    refine congrArg _ (funext fun ax => Fin.ext ?_)
    match ax with
    | ⟨0, _⟩ => show win0_3.index t (0 : Fin 1) * 8 + 1 * b.val = b.val; omega
  · intro k
    have e : ((cfg0.win 4).blk t).view.emb (ix1 k) = ix1 k := funext fun ax => Fin.ext (by
      match ax with
      | ⟨0, _⟩ => show win0_4.index t (0 : Fin 1) * 64 + 1 * k.val = k.val; omega)
    show V m c main_v8 (((cfg0.win 4).blk t).view.emb (ix1 k)) = _
    rw [e]
    exact gflat_at m c k
  · intro k
    have e4 : ((cfg0.win 4).blk t).view.emb (ix1 k) = ix1 k := funext fun ax => Fin.ext (by
      match ax with
      | ⟨0, _⟩ => show win0_4.index t (0 : Fin 1) * 64 + 1 * k.val = k.val; omega)
    have e5 : ((cfg0.win 5).blk t).view.emb (ix1 k) = ix1 k := funext fun ax => Fin.ext (by
      match ax with
      | ⟨0, _⟩ => show win0_5.index t (0 : Fin 1) * 64 + 1 * k.val = k.val; omega)
    show V m c main_v10 (((cfg0.win 5).blk t).view.emb (ix1 k)) = oneW - V m c main_v8 (((cfg0.win 4).blk t).view.emb (ix1 k))
    rw [e4, e5]
    exact omg_at m c k
  · intro b
    show V m c main_arg5 (((cfg0.win 6).blk t).view.emb (ix1 b)) = V m c main_arg5 (ix1 b)
    refine congrArg _ (funext fun ax => Fin.ext ?_)
    match ax with
    | ⟨0, _⟩ => show win0_6.index t (0 : Fin 1) * 8 + 1 * b.val = b.val; omega
  · intro b
    show V m c main_arg6 (((cfg0.win 7).blk t).view.emb (ix1 b)) = V m c main_arg6 (ix1 b)
    refine congrArg _ (funext fun ax => Fin.ext ?_)
    match ax with
    | ⟨0, _⟩ => show win0_7.index t (0 : Fin 1) * 8 + 1 * b.val = b.val; omega
  · intro b
    show V m c main_arg7 (((cfg0.win 8).blk t).view.emb (ix1 b)) = V m c main_arg7 (ix1 b)
    refine congrArg _ (funext fun ax => Fin.ext ?_)
    match ax with
    | ⟨0, _⟩ => show win0_8.index t (0 : Fin 1) * 8 + 1 * b.val = b.val; omega
  · intro b k
    have e : ((cfg0.win 9).blk t).view.emb (ix2 b k) = ix2 b k := funext fun ax => Fin.ext (by
      match ax with
      | ⟨0, _⟩ => show win0_9.index t (0 : Fin 2) * 8 + 1 * b.val = b.val; omega
      | ⟨1, _⟩ => show win0_9.index t (1 : Fin 2) * 64 + 1 * k.val = k.val; omega)
    show V m c main_cst (((cfg0.win 9).blk t).view.emb (ix2 b k)) = _
    rw [e]
    exact selA_at m c b k
  · intro b k
    have e : ((cfg0.win 10).blk t).view.emb (ix2 b k) = ix2 b k := funext fun ax => Fin.ext (by
      match ax with
      | ⟨0, _⟩ => show win0_10.index t (0 : Fin 2) * 8 + 1 * b.val = b.val; omega
      | ⟨1, _⟩ => show win0_10.index t (1 : Fin 2) * 64 + 1 * k.val = k.val; omega)
    show V m c main_cst_0 (((cfg0.win 10).blk t).view.emb (ix2 b k)) = _
    rw [e]
    exact selB_at m c b k
  · intro k b
    have e : ((cfg0.win 11).blk t).view.emb (ix2 k b) = ix2 k b := funext fun ax => Fin.ext (by
      match ax with
      | ⟨0, _⟩ => show win0_11.index t (0 : Fin 2) * 64 + 1 * k.val = k.val; omega
      | ⟨1, _⟩ => show win0_11.index t (1 : Fin 2) * 8 + 1 * b.val = b.val; omega)
    show V m c main_cst_1 (((cfg0.win 11).blk t).view.emb (ix2 k b)) = _
    rw [e]
    exact selC_at m c k b
  · have e : ((cfg0.win 12).blk t).view.emb (ix3 r a d) = ix3 ⟨1024 * t.val + r.val, hrow r⟩ a d := funext fun ax => Fin.ext (by
      match ax with
      | ⟨0, _⟩ => show win0_12.index t (0 : Fin 3) * 1024 + 1 * r.val = 1024 * t.val + r.val; omega
      | ⟨1, _⟩ => show win0_12.index t (1 : Fin 3) * 8 + 1 * a.val = a.val; omega
      | ⟨2, _⟩ => show win0_12.index t (2 : Fin 3) * 128 + 1 * d.val = d.val; omega)
    rw [e]
    rfl

/-- An index of the array is in point t's block iff each coordinate is in the block's range on its axis. -/
theorem mem_blk (t : Fin cfg0.N) (i : S131072x8x128.Idx) :
    i ∈ ((cfg0.win 12).blk t).view.set ↔ ∀ a : Fin 3, win0_12.index t a * S1024x8x128.size a ≤ (i a).val
      ∧ (i a).val < win0_12.index t a * S1024x8x128.size a + S1024x8x128.size a := by
  show i ∈ ((View.whole main_v11).slice (win0_12.rect t)).set ↔ _
  rw [View.set_slice_whole, Rect.mem_set_unit]
  exact Iff.rfl

/-- Every index of the array is in the block of the point its row belongs to. -/
theorem cover (i : S131072x8x128.Idx) : ∃ t : Fin cfg0.N, (cfg0.win 12).flush t = true ∧ i ∈ ((cfg0.win 12).blk t).view.set := by
  have hi0 : (i 0).val < 131072 := (i 0).isLt
  have hi1 : (i 1).val < 8 := (i 1).isLt
  have hi2 : (i 2).val < 128 := (i 2).isLt
  have hN : cfg0.N = 128 := N_0
  let t : Fin cfg0.N := ⟨(i 0).val / 1024, by rw [hN]; omega⟩
  obtain ⟨i12a, i12b, i12c, -⟩ := idx_facts t
  have ht : t.val = (i 0).val / 1024 := rfl
  refine ⟨t, flush0_12 t, ?_⟩
  rw [mem_blk]
  intro a
  match a with
  | ⟨0, _⟩ => show win0_12.index t (0 : Fin 3) * 1024 ≤ (i 0).val ∧ (i 0).val < win0_12.index t (0 : Fin 3) * 1024 + 1024; omega
  | ⟨1, _⟩ => show win0_12.index t (1 : Fin 3) * 8 ≤ (i 1).val ∧ (i 1).val < win0_12.index t (1 : Fin 3) * 8 + 8; omega
  | ⟨2, _⟩ => show win0_12.index t (2 : Fin 3) * 128 ≤ (i 2).val ∧ (i 2).val < win0_12.index t (2 : Fin 3) * 128 + 128; omega

/-- The array after the run: the fused output of the arrays as the region finds them. -/
theorem final (c : Dev nD) : (dats m 0 c).arrAt 12 cfg0.N = fusedV m c :=
  (dats m 0 c).arrAt_eq_of_cover 12 (fusedV m c) (fun t _ => flushed_eq m c t) cover

/-- The kernel's run: the result array ends holding the fused output of the arguments (the symmetrized exponent table as the
    host left it), the arguments unchanged. -/
theorem kernel_run : θ_run defs (onTc (τ := τ) (main (F := Ideal))) ⟨m, fun _ => 0, ρ⟩ fun r => ∀ c : Dev nD,
      r.2.mem ((c : Thread nD τ).loc main_v11)
        = fused (m ((c : Thread nD τ).loc main_arg0)) (m ((c : Thread nD τ).loc main_arg1)) (m ((c : Thread nD τ).loc main_arg2))
            (m ((c : Thread nD τ).loc main_arg3)) (m ((c : Thread nD τ).loc main_arg5)) (m ((c : Thread nD τ).loc main_arg6))
            (m ((c : Thread nD τ).loc main_arg7)) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (by
      unfold fusedV
      rw [V_main_arg0, V_main_arg1, V_main_arg2, V_main_arg3, V_main_arg5, V_main_arg6, V_main_arg7])), (h c).2⟩)
    (run_blocks m ρ)

end Cert.Fusion

end
-- ==== Proof.HostTable.lean ====
/-
  The symmetrized exponent table, on the two sides.

  Before its region the kernel's program builds the table g[i, j] = gammas[i, j] for i < j and gammas[j, i] otherwise: an
  iota spread down the rows and across the columns, the comparison "row index below column index", the transposed table, and the
  selection between the table and its transpose. The reference builds it by the same operations in the same order. So what the
  region finds in the table's buffer is the reference's table of the same argument.
-/
import proofs.«120597_j23321672417406_2_alg».proof.Proof.Gen.KernelIdeal.Frame
import proofs.«120597_j23321672417406_2_alg».proof.Proof.RefRead
import Idealize.ShloMosaic.Lib.StableHlo.Run
import Idealize.ShloMosaic.Lib.ValueIdx

noncomputable section

namespace Cert.Fusion

open Idealize.ShloMosaic Idealize.ShloMosaic.ValueIdx Idealize.ShloMosaic.StableHlo Idealize.ShloMosaic.TcCoe Idealize.SL.Sem
open Cert.KernelIdeal Cert.KernelIdeal.Gen

variable (m : (ℓ : Loc nD τ sig) → Buf (Elt Ideal) ℓ)

/-- The table the region finds is the reference's symmetrized table of the exponent argument. -/
theorem gsym_eq (c : Dev nD) :
    (V m c main_v7 : S8x8.Idx → EReal)
      = Cert.ReferenceIdeal.Read.val_main_v22 (F := Ideal) (m ((c : Thread nD τ).loc main_arg4)) := by
  dsimp only [V]
  simp only [hostOps0, hostOps0_1, hostOps0_2, List.flatten_cons, List.flatten_nil, List.append_nil, List.cons_append, List.nil_append]
  after_results
  rfl

end Cert.Fusion

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«120597_j23321672417406_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.LibPosPre.lean ====
/-
  Reading a printed precondition's test "every entry is positive", at the ideal values.

  `jnp.all(x > 0)` prints as a reduction by `and`, over all axes, of the comparison of x with the zero constant spread over
  the array's shape; it holds when the reduction's one result is 1. A reduction by `and` that is 1 had a 1 at every entry,
  so at every entry the order's comparison says 0 < x. Stated for any shape and any reduced axes, in the form the test is
  printed in, beside the tests "finite" and "nonnegative".
-/
import Idealize.ShloMosaic.Lib.ReduceAll
import Idealize.ShloMosaic.Lib.Pipeline.Value
import Idealize.ShloMosaic.Lib.ValueIdx
import Idealize.ShloMosaic.PureOps.Ideal.Laws
import proofs.«120597_j23321672417406_2_alg».proof.Proof.LibFinitePre

noncomputable section

namespace Cert.LibPosPre

open Idealize.ShloMosaic Idealize.ShloMosaic.ValueIdx Cert.LibFinitePre

/-- x > 0 on the extended reals is the order's. -/
theorem pos_of_cmp (x : EReal) (h : Ideal.cmp .ogt x 0 = 1#1) : 0 < x :=
  of_decide_eq_true ((ofBool_eq_one _).1 h)

/-- A test "every entry > 0" that holds says every entry is positive. -/
theorem all_pos {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .ogt a (broadcastInDim s ![] hb (constant (F := Ideal) ⟨0, ![]⟩ .f32 0x00000000#32)))
      (constantI ⟨0, ![]⟩ 1 1#1) hr hu ix0 = 1#1) (i : s.Idx) : 0 < a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine pos_of_cmp (a i) ?_
  have h2 : Ideal.cmp .ogt (a i) (broadcastInDim s ![] hb (constant (F := Ideal) ⟨0, ![]⟩ .f32 0x00000000#32) i) = 1#1 := h
  rwa [hb'] at h2

end Cert.LibPosPre

end
-- ==== Proof.RefRow.lean ====
/-
  The reference, read entry by entry.

  Row n of the reference: the bases φ b = (1 + w b) · max (q[n, b] − qmin b + e, e) + b b; the partial energies
  φ i ^ g i j · φ j ^ (1 − g i j) with g the symmetrized exponent table; the modal energies, their sum over j from zero;
  the logits m i = −1 · modal i; the gate exp (log-softmax m): the row maximum taken from −∞ (and once more against −∞),
  the shifted exponentials summed from zero, the logarithm of the sum subtracted from the shifted logit; and the output
  max (tanh (G a · gate a + bias a), 0) · x[n, a, d].
  For positive real bases and real exponents this is the fused output of the exponential arrangement.
-/
import proofs.«120597_j23321672417406_2_alg».proof.Proof.RefRead
import proofs.«120597_j23321672417406_2_alg».proof.Proof.LibMaxReduce
import proofs.«120597_j23321672417406_2_alg».proof.Proof.RowMath
import Idealize.ShloMosaic.Lib.ValueIdx

noncomputable section

namespace Cert.Fusion

open Idealize.ShloMosaic Idealize.ShloMosaic.ValueIdx Cert.ReferenceIdeal Cert.ReferenceIdeal.Gen Cert.ReferenceIdeal.Read
open Cert.LibSoftmaxRow Cert.LibRealEntries

/-- Two index functions agree: coordinate by coordinate. -/
local macro "idx_ext" : tactic => `(tactic| (funext a; apply Fin.ext; fin_cases a <;> rfl))

variable (x0 : (⟨S131072x8x128, .f32⟩ : BufTy).Contents (Elt Ideal)) (x1 : (⟨S131072x8, .f32⟩ : BufTy).Contents (Elt Ideal))
  (x2 x3 : (⟨S8, .f32⟩ : BufTy).Contents (Elt Ideal)) (x4 : (⟨S8x8, .f32⟩ : BufTy).Contents (Elt Ideal))
  (x5 x6 x7 : (⟨S8, .f32⟩ : BufTy).Contents (Elt Ideal))

/-- The base of mode b in row n. -/
theorem ref_phi (n : Fin 131072) (b : Fin 8) :
    val_main_v14 (F := Ideal) x1 x2 x3 x7 (ix2 n b) = phi (x1 (ix2 n b)) (x7 (ix1 b)) (x2 (ix1 b)) (x3 (ix1 b)) := by
  have e0 : idx_main_v0 (idx_main_v1 (ix2 n b)) = ix1 b := by idx_ext
  have e9 : idx_main_v9 (idx_main_v10 (ix2 n b)) = ix1 b := by idx_ext
  have e12 : idx_main_v12 (idx_main_v13 (ix2 n b)) = ix1 b := by idx_ext
  simp only [val_main_v14_apply, val_main_v11_apply, val_main_v10_apply, val_main_v9_apply, val_main_v8_apply, val_main_v7_apply,
    val_main_cst_1_apply, val_main_v6_apply, val_main_v4_apply, val_main_v2_apply, val_main_v1_apply, val_main_v0_apply,
    val_main_v3_apply, val_main_cst_apply, val_main_v5_apply, val_main_cst_0_apply, val_main_v13_apply, val_main_v12_apply, e0, e9, e12]
  rfl

/-- The exponent of the first base of the pair (i, j), spread over the rows. -/
theorem ref_g (n : Fin 131072) (i j : Fin 8) :
    val_main_v26 (F := Ideal) x4 (ix3 n i j) = val_main_v22 (F := Ideal) x4 (ix2 i j) := by
  have e : idx_main_v24 (idx_main_v26 (ix3 n i j)) = ix2 i j := by idx_ext
  rw [val_main_v26_apply, val_main_v24_apply, e]

/-- The exponent of the second base: one minus the first. -/
theorem ref_omg (n : Fin 131072) (i j : Fin 8) :
    val_main_v33 (F := Ideal) x4 (ix3 n i j) = oneW - val_main_v22 (F := Ideal) x4 (ix2 i j) := by
  have e : idx_main_v31 (idx_main_v33 (ix3 n i j)) = ix2 i j := by idx_ext
  rw [val_main_v33_apply, val_main_v31_apply, e, val_main_v30_apply, val_main_v29_apply, val_main_cst_2_apply]
  rfl

/-- The partial energy of the pair (i, j) in row n. -/
theorem ref_pair (n : Fin 131072) (i j : Fin 8) :
    val_main_v35 (F := Ideal) x1 x2 x3 x4 x7 (ix3 n i j)
      = pairPow (fun b => val_main_v14 (F := Ideal) x1 x2 x3 x7 (ix2 n b)) (fun i j => val_main_v22 (F := Ideal) x4 (ix2 i j)) i j := by
  have e25 : idx_main_v23 (idx_main_v25 (ix3 n i j)) = ix2 n i := by idx_ext
  have e32 : idx_main_v28 (idx_main_v32 (ix3 n i j)) = ix2 n j := by idx_ext
  rw [val_main_v35_apply, val_main_v27_apply, val_main_v34_apply, val_main_v25_apply, val_main_v23_apply, e25, val_main_v32_apply,
    val_main_v28_apply, e32, ref_g, ref_omg]
  rfl

/-- The logit of mode i in row n. -/
theorem ref_m (n : Fin 131072) (i : Fin 8) :
    val_main_v38 (F := Ideal) x1 x2 x3 x4 x7 (ix2 n i)
      = negOneW * (zeroW + ∑ j, pairPow (fun b => val_main_v14 (F := Ideal) x1 x2 x3 x7 (ix2 n b))
          (fun i j => val_main_v22 (F := Ideal) x4 (ix2 i j)) i j) := by
  have e : ∀ j : Fin 8, idx_main_v36 (ix2 n i) j = ix3 n i j := fun j => by idx_ext
  rw [val_main_v38_apply, val_main_v37_apply, val_main_cst_4_apply, val_main_v36_apply, val_main_cst_3_apply]
  simp only [e, ref_pair]
  rfl

/-- The gate of mode a in row n: the exponential of the log-softmax of the row's logits. -/
theorem ref_alpha (n : Fin 131072) (a : Fin 8) :
    val_main_v40 (F := Ideal) x1 x2 x3 x4 x7 (ix2 n a) = gateLog (fun i => val_main_v38 (F := Ideal) x1 x2 x3 x4 x7 (ix2 n i)) a := by
  have hmax : val_main_call1_v2 (F := Ideal) x1 x2 x3 x4 x7 (ix1 n) = rowMax (fun i => val_main_v38 (F := Ideal) x1 x2 x3 x4 x7 (ix2 n i)) := by
    rw [val_main_call1_v2_apply, val_main_call1_v1_apply, val_main_call1_cst_0_apply]
    unfold val_main_call1_v0
    refine (congrArg (fun z : EReal => max (Ideal.ofBits .f32 0xFF800000#32) z)
      (Cert.LibMaxReduce.hostReduce_maximumf_lastAxis_apply (val_main_v38 (F := Ideal) x1 x2 x3 x4 x7) (val_main_call1_cst (F := Ideal))
        reducesTo_S131072x8_S131072_d1 (by decide) h_S_ n)).trans ?_
    show max (Ideal.ofBits .f32 0xFF800000#32) (Cert.LibMaxReduce.foldMax (Ideal.ofBits .f32 0xFF800000#32) _) = _
    rw [Cert.LibMaxReduce.max_foldMax, c_neginf]
    rfl
  have hshift : ∀ c : Fin 8, val_main_call1_v5 (F := Ideal) x1 x2 x3 x4 x7 (ix2 n c)
      = val_main_v38 (F := Ideal) x1 x2 x3 x4 x7 (ix2 n c) - rowMax (fun i => val_main_v38 (F := Ideal) x1 x2 x3 x4 x7 (ix2 n i)) := fun c => by
    have e : idx_main_call1_v3 (idx_main_call1_v4 (ix2 n c)) = ix1 n := by idx_ext
    rw [val_main_call1_v5_apply, val_main_call1_v4_apply, val_main_call1_v3_apply, e, hmax]
    rfl
  have hsum : val_main_call1_v10 (F := Ideal) x1 x2 x3 x4 x7 (ix2 n a)
      = Ideal.log (zeroW + rowSum (fun i => val_main_v38 (F := Ideal) x1 x2 x3 x4 x7 (ix2 n i))) := by
    have e : idx_main_call1_v8 (idx_main_call1_v10 (ix2 n a)) = ix1 n := by idx_ext
    have e7 : ∀ k : Fin 8, idx_main_call1_v7 (ix1 n) k = ix2 n k := fun k => by idx_ext
    rw [val_main_call1_v10_apply, val_main_call1_v9_apply, val_main_call1_v8_apply, e, val_main_call1_v7_apply, val_main_call1_cst_1_apply]
    simp only [e7, val_main_call1_v6_apply, hshift, rowSum, rowExp, Ideal.hostUnary_log_def, Ideal.hostUnary_exp_def,
      Ideal.ofBits_def]
  rw [val_main_v40_apply, val_main_v39_apply, hshift a, hsum]
  simp only [gateLog, Ideal.hostUnary_exp_def, Ideal.subf_def]

/-- The output at row n, mode a, lane d. -/
theorem ref_out (n : Fin 131072) (a : Fin 8) (d : Fin 128) :
    val_main_v51 (F := Ideal) x0 x1 x2 x3 x4 x5 x6 x7 (ix3 n a d)
      = max (Ideal.tanh (x5 (ix1 a) * val_main_v40 (F := Ideal) x1 x2 x3 x4 x7 (ix2 n a) + x6 (ix1 a))) zeroW * x0 (ix3 n a d) := by
  have e50 : idx_main_v49 (idx_main_v50 (ix3 n a d)) = ix2 n a := by idx_ext
  have e42 : idx_main_v41 (idx_main_v42 (ix2 n a)) = ix1 a := by idx_ext
  have e45 : idx_main_v44 (idx_main_v45 (ix2 n a)) = ix1 a := by idx_ext
  rw [val_main_v51_apply, val_main_v50_apply, val_main_v49_apply, e50, val_main_v48_apply, val_main_v47_apply, val_main_v46_apply,
    val_main_v43_apply, val_main_v42_apply, val_main_v41_apply, e42, val_main_v45_apply, val_main_v44_apply, e45,
    val_main_call2_v0_apply, val_main_call2_cst_apply]
  rfl

/-- With positive real bases and real exponents the reference's result is the fused output. -/
theorem ref_eq_fused
    (hφ : ∀ (n : Fin 131072) (b : Fin 8), IsReal (phi (x1 (ix2 n b)) (x7 (ix1 b)) (x2 (ix1 b)) (x3 (ix1 b))))
    (hpos : ∀ (n : Fin 131072) (b : Fin 8), 0 < phi (x1 (ix2 n b)) (x7 (ix1 b)) (x2 (ix1 b)) (x3 (ix1 b)))
    (hg : ∀ i j : Fin 8, IsReal (val_main_v22 (F := Ideal) x4 (ix2 i j))) :
    val_main_v51 (F := Ideal) x0 x1 x2 x3 x4 x5 x6 x7 = fused x0 x1 x2 x3 x5 x6 x7 (val_main_v22 (F := Ideal) x4) := by
  funext i
  obtain ⟨n, a, d, rfl⟩ : ∃ (n : Fin 131072) (a : Fin 8) (d : Fin 128), i = ix3 n a d := ⟨i 0, i 1, i 2, eq_ix3 i⟩
  rw [ref_out, ref_alpha]
  show _ = outAt x0 x1 x2 x3 x5 x6 x7 (val_main_v22 (F := Ideal) x4) n a d
  unfold outAt
  have hrow : (fun i => val_main_v38 (F := Ideal) x1 x2 x3 x4 x7 (ix2 n i))
      = fun i => negOneW * (zeroW + ∑ j, pairPow (fun b => phi (x1 (ix2 n b)) (x7 (ix1 b)) (x2 (ix1 b)) (x3 (ix1 b)))
          (fun i j => val_main_v22 (F := Ideal) x4 (ix2 i j)) i j) := funext fun i => by
    rw [ref_m]
    simp only [ref_phi]
  rw [hrow]
  have key := alphaPow_eq_alphaExp (fun b => phi (x1 (ix2 n b)) (x7 (ix1 b)) (x2 (ix1 b)) (x3 (ix1 b)))
    (fun i j => val_main_v22 (F := Ideal) x4 (ix2 i j)) (hφ n) (hpos n) hg a
  unfold alphaPow at key
  rw [key]

end Cert.Fusion

end
-- ==== Proof.Domain.lean ====
/-
  What the precondition says of the arguments.

  The precondition is a conjunction of nine tests: each of the eight arrays holds finite numbers, and every base
  φ[n, b] = (1 + w b) · max (q[n, b] − qmin b + e, e) + b b is positive — the domain of the reference's real powers φ ^ g.
  Read entry by entry: the energies, the scales, the shifts, the running minima and the exponent table are real numbers; so
  every base is a real number (sums, products and maxima of reals are real, and the words of 1.0 and of e are real), and it is
  positive; and the symmetrized exponent table, each of whose entries is an entry of the table, is real.
-/
import proofs.«120597_j23321672417406_2_alg».proof.Pre_finite_inputs
import proofs.«120597_j23321672417406_2_alg».proof.Proof.Gen.Pre_finite_inputs
import proofs.«120597_j23321672417406_2_alg».proof.Proof.LibPosPre
import proofs.«120597_j23321672417406_2_alg».proof.Proof.RefRow
import Idealize.ShloMosaic.Lib.Affine

noncomputable section

namespace Cert.Fusion

open Idealize.ShloMosaic Idealize.ShloMosaic.ValueIdx Cert.LibRealEntries Cert.LibFinitePre Cert.LibPosPre Cert.LibSoftmaxRow

/-- The word of e is a real number. -/
theorem eW_real : IsReal eW := by
  refine ⟨(Ideal.ofBits .f32 0x402DF854#32).toReal, (EReal.coe_toReal ?_ ?_).symm⟩ <;>
    (simp [Ideal.ofBits, Ideal.ieee, -EReal.coe_mul] <;> first | exact EReal.coe_ne_top _ | exact EReal.coe_ne_bot _)

/-- A base computed from real entries is real. -/
theorem phi_real {q qmin w b : EReal} (hq : IsReal q) (hqmin : IsReal qmin) (hw : IsReal w) (hb : IsReal b) :
    IsReal (phi q qmin w b) := by
  unfold phi
  have h1 : IsReal oneW := ⟨1, oneW_eq⟩
  exact ((h1.add hw).mul (((hq.sub hqmin).add eW_real).max eW_real)).add hb

/-- The precondition, read: real energies, scales, shifts, exponents and minima, and positive bases. -/
theorem pre_reads (a0 : FVec Ideal Cert.Pre_finite_inputs.S131072x8x128 .f32) (a1 : FVec Ideal Cert.Pre_finite_inputs.S131072x8 .f32)
    (a2 a3 : FVec Ideal Cert.Pre_finite_inputs.S8 .f32) (a4 : FVec Ideal Cert.Pre_finite_inputs.S8x8 .f32)
    (a5 a6 a7 : FVec Ideal Cert.Pre_finite_inputs.S8 .f32)
    (h : Cert.Pre_finite_inputs.fn (F := Ideal) a0 a1 a2 a3 a4 a5 a6 a7 = fun _ => 1#1) :
    (∀ i, IsReal (a1 i)) ∧ (∀ i, IsReal (a2 i)) ∧ (∀ i, IsReal (a3 i)) ∧ (∀ i, IsReal (a4 i)) ∧ (∀ i, IsReal (a7 i))
      ∧ (∀ i, 0 < Cert.ReferenceIdeal.Read.val_main_v14 (F := Ideal) a1 a2 a3 a7 i) := by
  have h0 := congrFun h ix0
  dsimp only [Cert.Pre_finite_inputs.fn, Cert.Pre_finite_inputs.fn_part1, Cert.Pre_finite_inputs.fn_part2,
    Cert.Pre_finite_inputs.fn_part3] at h0
  obtain ⟨h38, h56⟩ := IntOp.andi_eq_one.1 h0
  obtain ⟨h33, h37⟩ := IntOp.andi_eq_one.1 h38
  obtain ⟨h28, -⟩ := IntOp.andi_eq_one.1 h33
  obtain ⟨h23, -⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨-, h7⟩ := IntOp.andi_eq_one.1 h8
  exact ⟨all_real a1 _ _ _ h7, all_real a2 _ _ _ h12, all_real a3 _ _ _ h17, all_real a4 _ _ _ h22, all_real a7 _ _ _ h37,
    all_pos (Cert.ReferenceIdeal.Read.val_main_v14 (F := Ideal) a1 a2 a3 a7) _ _ _ h56⟩

/-- An entry of the symmetrized exponent table is an entry of the table: real when the table is. -/
theorem gsym_real (a4 : (⟨Cert.ReferenceIdeal.S8x8, .f32⟩ : BufTy).Contents (Elt Ideal)) (h4 : ∀ i, IsReal (a4 i)) (i j : Fin 8) :
    IsReal (Cert.ReferenceIdeal.Read.val_main_v22 (F := Ideal) a4 (ix2 i j)) := by
  rw [Cert.ReferenceIdeal.Read.val_main_v22_apply, Cert.ReferenceIdeal.Read.val_main_v21_apply]
  rcases BitVec.eq_zero_or_eq_one (Cert.ReferenceIdeal.Read.val_main_v20 (F := Ideal) (ix2 i j)) with hc | hc
  · rw [hc, select_zero]; exact h4 _
  · rw [hc, select_one]; exact h4 _

end Cert.Fusion

end
-- ==== Proof.lean ====
/-
  The kernel and its reference compute one function on the extended reals, on the domain of the reference's powers.

  The kernel fuses eight modes: per row it forms the bases φ b = (1 + w b) · max (q b − qmin b + e, e) + b b, the 64 pairwise
  partial energies exp (g · log φ i + (1 − g) · log φ j) — the pairs laid along one axis and the logarithms picked by products with
  0/1 selection matrices —, the modal energies (again a product with a selection matrix), the softmax of their negatives as entry
  over row sum below the row maximum, and the gated output max (tanh (G · α + bias), 0) · x. The reference forms φ i ^ g · φ j ^ (1 − g)
  over an [N, 8, 8] array, sums over the last axis, and takes the exponential of the log-softmax.
  For positive real bases and real exponents these are one function: x ^ y = exp (y · log x) for x > 0, exp of a sum is the
  product, a 0/1 selection sum keeps one term, and exp (a − log S) = exp a / S for a positive real S. The precondition supplies
  exactly that: every input finite and every base positive, the domain the reference's own comment states for its powers.
  The three frames are the generated ones (the reference's: its run with the result dropped); the idealization rewrote nothing.
-/
import proofs.«120597_j23321672417406_2_alg».proof.Defs
import proofs.«120597_j23321672417406_2_alg».proof.Proof.Gen.Kernel
import proofs.«120597_j23321672417406_2_alg».proof.Proof.Gen.Kernel.Skeleton
import proofs.«120597_j23321672417406_2_alg».proof.Proof.Gen.Kernel.Launch
import proofs.«120597_j23321672417406_2_alg».proof.Proof.Gen.Kernel.Points
import proofs.«120597_j23321672417406_2_alg».proof.Proof.Gen.Kernel.Frame
import proofs.«120597_j23321672417406_2_alg».proof.Proof.Gen.KernelIdeal
import proofs.«120597_j23321672417406_2_alg».proof.Proof.Gen.KernelIdeal.Skeleton
import proofs.«120597_j23321672417406_2_alg».proof.Proof.Gen.KernelIdeal.Launch
import proofs.«120597_j23321672417406_2_alg».proof.Proof.Gen.KernelIdeal.Points
import proofs.«120597_j23321672417406_2_alg».proof.Proof.Gen.KernelIdeal.Frame
import proofs.«120597_j23321672417406_2_alg».proof.Proof.Gen.ReferenceIdeal
import proofs.«120597_j23321672417406_2_alg».proof.Proof.Gen.Pre_finite_inputs
import proofs.«120597_j23321672417406_2_alg».proof.Proof.Gen.KernelIdeal.Value
import proofs.«120597_j23321672417406_2_alg».proof.Proof.RefRun
import proofs.«120597_j23321672417406_2_alg».proof.Proof.RefRead
import proofs.«120597_j23321672417406_2_alg».proof.Proof.KernelArray
import proofs.«120597_j23321672417406_2_alg».proof.Proof.HostTable
import proofs.«120597_j23321672417406_2_alg».proof.Proof.Domain
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the fused output of the arguments: the kernel block by block, the reference entry by entry, the two
    arrangements of a row equal because the precondition makes every base a positive real and every exponent a real. -/
theorem algebraic : Cert.algebraic_KernelIdeal_ReferenceIdeal := by
  intro m ρ m' ρ' hpre hagree
  refine ⟨_, Cert.Fusion.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  obtain ⟨r1, r2, r3, r4, r7, rpos⟩ := Cert.Fusion.pre_reads _ _ _ _ _ _ _ _ (hpre c)
  rw [Cert.ReferenceIdeal.Read.val_main_v51_eq, g0, g1, g2, g3, g4, g5, g6, g7]
  refine (Cert.Fusion.ref_eq_fused _ _ _ _ _ _ _ _
    (fun n b => Cert.Fusion.phi_real (r1 _) (r7 _) (r2 _) (r3 _))
    (fun n b => by have := rpos (ix2 n b); rwa [Cert.Fusion.ref_phi] at this)
    (fun i j => Cert.Fusion.gsym_real _ r4 i j)).trans ?_
  rw [Cert.Fusion.gsym_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
